-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x262144x64 : Shape := ⟨3, ![4, 262144, 64]⟩
abbrev S4x262144x3 : Shape := ⟨3, ![4, 262144, 3]⟩
abbrev S64x64 : Shape := ⟨2, ![64, 64]⟩
abbrev S64x3 : Shape := ⟨2, ![64, 3]⟩
abbrev S64 : Shape := ⟨1, ![64]⟩
abbrev S3x64 : Shape := ⟨2, ![3, 64]⟩
abbrev S3 : Shape := ⟨1, ![3]⟩
abbrev S_ : Shape := ⟨0, ![]⟩

class Facts : Prop where
  bcast_S_S4x262144x64 : S_.BroadcastsInDim S4x262144x64 (![] : Fin 0 → Fin S4x262144x64.rank)
  reducesTo_S4x262144x64_S_d0_1_2 : S4x262144x64.ReducesTo [0, 1, 2] S_
  h_S_ : 0 < S_.numel
  bcast_S_S4x262144x3 : S_.BroadcastsInDim S4x262144x3 (![] : Fin 0 → Fin S4x262144x3.rank)
  reducesTo_S4x262144x3_S_d0_1_2 : S4x262144x3.ReducesTo [0, 1, 2] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_
  bcast_S_S3x64 : S_.BroadcastsInDim S3x64 (![] : Fin 0 → Fin S3x64.rank)
  reducesTo_S3x64_S_d0_1 : S3x64.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S64 .f32) (main_arg8 : FVec F S3x64 .f32) (main_arg9 : FVec F S3 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64 .f32 := Host.absf main_arg8
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  main_v48

def fn_part1 {F : FTy → Type} [FloatOps F] (main_arg4 : FVec F S64 .f32) (main_arg5 : FVec F S64x64 .f32) (main_arg6 : FVec F S64x3 .f32) (main_arg7 : FVec F S64 .f32) (main_arg8 : FVec F S3x64 .f32) (main_arg9 : FVec F S3 .f32) (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x3 .f32 := Host.absf main_arg6
  let main_cst_10 : FVec F S_ .f32 := constant S_ .f32 0x7F800000#32
  let main_v30 : FVec F S64x3 .f32 := broadcastInDim S64x3 ![] bcast_S_S64x3 main_cst_10
  let main_v31 : IVec S64x3 1 := cmpf .olt main_v29 main_v30
  let main_c_11 : IVec S_ 1 := constantI S_ 1 1#1
  let main_v32 : IVec S_ 1 := (fun x v => Host.reduce IntOp.andi x v reducesTo_S64x3_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x262144x64 .f32) (main_arg1 : FVec F S4x262144x3 .f32) (main_arg2 : FVec F S64x64 .f32) (main_arg3 : FVec F S64x3 .f32) (main_arg4 : FVec F S64 .f32) (main_arg5 : FVec F S64x64 .f32) (main_arg6 : FVec F S64x3 .f32) (main_arg7 : FVec F S64 .f32) (main_arg8 : FVec F S3x64 .f32) (main_arg9 : FVec F S3 .f32) : IVec S_ 1 :=
  let main_v0 : FVec F S4x262144x64 .f32 := Host.absf main_arg0
  let main_cst : FVec F S_ .f32 := constant S_ .f32 0x7F800000#32
  let main_v1 : FVec F S4x262144x64 .f32 := broadcastInDim S4x262144x64 ![] bcast_S_S4x262144x64 main_cst
  let main_v2 : IVec S4x262144x64 1 := cmpf .olt main_v0 main_v1
  let main_c : IVec S_ 1 := constantI S_ 1 1#1
  let main_v3 : IVec S_ 1 := (fun x v => Host.reduce IntOp.andi x v reducesTo_S4x262144x64_S_d0_1_2 h_S_) main_v2 main_c
  let main_v4 : FVec F S4x262144x3 .f32 := Host.absf main_arg1
  let main_cst_0 : FVec F S_ .f32 := constant S_ .f32 0x7F800000#32
  let main_v5 : FVec F S4x262144x3 .f32 := broadcastInDim S4x262144x3 ![] bcast_S_S4x262144x3 main_cst_0
  let main_v6 : IVec S4x262144x3 1 := cmpf .olt main_v4 main_v5
  let main_c_1 : IVec S_ 1 := constantI S_ 1 1#1
  let main_v7 : IVec S_ 1 := (fun x v => Host.reduce IntOp.andi x v reducesTo_S4x262144x3_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_arg4 main_arg5 main_arg6 main_arg7 main_arg8 main_arg9 main_v13 main_v16
-- ==== Kernel.lean ====
abbrev S4x262144x64 : Shape := ⟨3, ![4, 262144, 64]⟩
abbrev S4x262144x3 : Shape := ⟨3, ![4, 262144, 3]⟩
abbrev S64x64 : Shape := ⟨2, ![64, 64]⟩
abbrev S64x3 : Shape := ⟨2, ![64, 3]⟩
abbrev S64 : Shape := ⟨1, ![64]⟩
abbrev S3x64 : Shape := ⟨2, ![3, 64]⟩
abbrev S3 : Shape := ⟨1, ![3]⟩
abbrev S4x131072x128 : Shape := ⟨3, ![4, 131072, 128]⟩
abbrev S4x131072x6 : Shape := ⟨3, ![4, 131072, 6]⟩
abbrev S_ : Shape := ⟨0, ![]⟩
abbrev S64x128 : Shape := ⟨2, ![64, 128]⟩
abbrev S128x128 : Shape := ⟨2, ![128, 128]⟩
abbrev S3x128 : Shape := ⟨2, ![3, 128]⟩
abbrev S6x128 : Shape := ⟨2, ![6, 128]⟩
abbrev S64x6 : Shape := ⟨2, ![64, 6]⟩
abbrev S128x6 : Shape := ⟨2, ![128, 6]⟩
abbrev S128 : Shape := ⟨1, ![128]⟩
abbrev S1x128 : Shape := ⟨2, ![1, 128]⟩
abbrev S6 : Shape := ⟨1, ![6]⟩
abbrev S1x6 : Shape := ⟨2, ![1, 6]⟩
abbrev S1x4096x128 : Shape := ⟨3, ![1, 4096, 128]⟩
abbrev S1x4096x6 : Shape := ⟨3, ![1, 4096, 6]⟩
abbrev S4096x128 : Shape := ⟨2, ![4096, 128]⟩
abbrev S4096x6 : Shape := ⟨2, ![4096, 6]⟩

abbrev nBuf : Space → Nat
  | .hbm => 57
  | .vmem => 16
  | .smem => 0
  | _ => 0

abbrev bufTy : (tb : Table) → Fin (tcTables nBuf tb) → BufTy
  | .hbm, ⟨0, _⟩ => ⟨S4x262144x64, .f32⟩
  | .hbm, ⟨1, _⟩ => ⟨S4x262144x3, .f32⟩
  | .hbm, ⟨2, _⟩ => ⟨S64x64, .f32⟩
  | .hbm, ⟨3, _⟩ => ⟨S64x3, .f32⟩
  | .hbm, ⟨4, _⟩ => ⟨S64, .f32⟩
  | .hbm, ⟨5, _⟩ => ⟨S64x64, .f32⟩
  | .hbm, ⟨6, _⟩ => ⟨S64x3, .f32⟩
  | .hbm, ⟨7, _⟩ => ⟨S64, .f32⟩
  | .hbm, ⟨8, _⟩ => ⟨S3x64, .f32⟩
  | .hbm, ⟨9, _⟩ => ⟨S3, .f32⟩
  | .hbm, ⟨10, _⟩ => ⟨S4x131072x128, .f32⟩
  | .hbm, ⟨11, _⟩ => ⟨S4x131072x6, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x128, .f32⟩
  | .hbm, ⟨16, _⟩ => ⟨S64x128, .f32⟩
  | .hbm, ⟨17, _⟩ => ⟨S128x128, .f32⟩
  | .hbm, ⟨18, _⟩ => ⟨S128x128, .bf16⟩
  | .hbm, ⟨19, _⟩ => ⟨S3x64, .f32⟩
  | .hbm, ⟨20, _⟩ => ⟨S_, .f32⟩
  | .hbm, ⟨21, _⟩ => ⟨S3x64, .f32⟩
  | .hbm, ⟨22, _⟩ => ⟨S3x128, .f32⟩
  | .hbm, ⟨23, _⟩ => ⟨S3x128, .f32⟩
  | .hbm, ⟨24, _⟩ => ⟨S6x128, .f32⟩
  | .hbm, ⟨25, _⟩ => ⟨S6x128, .bf16⟩
  | .hbm, ⟨26, _⟩ => ⟨S64x64, .f32⟩
  | .hbm, ⟨27, _⟩ => ⟨S_, .f32⟩
  | .hbm, ⟨28, _⟩ => ⟨S64x64, .f32⟩
  | .hbm, ⟨29, _⟩ => ⟨S64x128, .f32⟩
  | .hbm, ⟨30, _⟩ => ⟨S64x128, .f32⟩
  | .hbm, ⟨31, _⟩ => ⟨S128x128, .f32⟩
  | .hbm, ⟨32, _⟩ => ⟨S128x128, .bf16⟩
  | .hbm, ⟨33, _⟩ => ⟨S3x64, .f32⟩
  | .hbm, ⟨34, _⟩ => ⟨S_, .f32⟩
  | .hbm, ⟨35, _⟩ => ⟨S3x64, .f32⟩
  | .hbm, ⟨36, _⟩ => ⟨S3x128, .f32⟩
  | .hbm, ⟨37, _⟩ => ⟨S3x128, .f32⟩
  | .hbm, ⟨38, _⟩ => ⟨S6x128, .f32⟩
  | .hbm, ⟨39, _⟩ => ⟨S6x128, .bf16⟩
  | .hbm, ⟨40, _⟩ => ⟨S64x3, .f32⟩
  | .hbm, ⟨41, _⟩ => ⟨S_, .f32⟩
  | .hbm, ⟨42, _⟩ => ⟨S64x3, .f32⟩
  | .hbm, ⟨43, _⟩ => ⟨S64x6, .f32⟩
  | .hbm, ⟨44, _⟩ => ⟨S64x6, .f32⟩
  | .hbm, ⟨45, _⟩ => ⟨S128x6, .f32⟩
  | .hbm, ⟨46, _⟩ => ⟨S128x6, .bf16⟩
  | .hbm, ⟨47, _⟩ => ⟨S128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S6, .f32⟩
  | .hbm, ⟨52, _⟩ => ⟨S1x6, .f32⟩
  | .hbm, ⟨53, _⟩ => ⟨S4x131072x128, .f32⟩
  | .hbm, ⟨54, _⟩ => ⟨S4x131072x6, .f32⟩
  | .hbm, ⟨55, _⟩ => ⟨S4x262144x64, .f32⟩
  | .hbm, ⟨56, _⟩ => ⟨S4x262144x3, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x6, .f32⟩
  | .local _ .vmem, ⟨3, _⟩ => ⟨S1x4096x6, .f32⟩
  | .local _ .vmem, ⟨4, _⟩ => ⟨S128x128, .bf16⟩
  | .local _ .vmem, ⟨5, _⟩ => ⟨S6x128, .bf16⟩
  | .local _ .vmem, ⟨6, _⟩ => ⟨S1x128, .f32⟩
  | .local _ .vmem, ⟨7, _⟩ => ⟨S128x128, .bf16⟩
  | .local _ .vmem, ⟨8, _⟩ => ⟨S6x128, .bf16⟩
  | .local _ .vmem, ⟨9, _⟩ => ⟨S1x128, .f32⟩
  | .local _ .vmem, ⟨10, _⟩ => ⟨S128x6, .bf16⟩
  | .local _ .vmem, ⟨11, _⟩ => ⟨S1x6, .f32⟩
  | .local _ .vmem, ⟨12, _⟩ => ⟨S1x4096x128, .f32⟩
  | .local _ .vmem, ⟨13, _⟩ => ⟨S1x4096x128, .f32⟩
  | .local _ .vmem, ⟨14, _⟩ => ⟨S1x4096x6, .f32⟩
  | .local _ .vmem, ⟨15, _⟩ => ⟨S1x4096x6, .f32⟩
  | _, _ => ⟨S4x262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38_0 : Ref sig .tc := ⟨.hbm, 53, rfl⟩
abbrev main_v38_1 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S6x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S6x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x6 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4096x6 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  shapeCasts_S4x262144x64_S4x131072x128 : S4x262144x64.ShapeCasts S4x131072x128
  shapeCasts_S4x262144x3_S4x131072x6 : S4x262144x3.ShapeCasts S4x131072x6
  transposes_S64x64_S64x64_1_0 : S64x64.Transposes [1, 0] S64x64
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  bitsLt_bf16_f32 : FTy.bits .bf16 < FTy.bits .f32
  transposes_S64x3_S3x64_1_0 : S64x3.Transposes [1, 0] S3x64
  bcast_S_S3x64 : S_.BroadcastsInDim S3x64 (![] : Fin 0 → Fin S3x64.rank)
  concatenates_S3x64_S3x64_S3x128_d1 : Shape.Concatenates [S3x64, S3x64] S3x128 1
  concatenates_S3x128_S3x128_S6x128_d0 : Shape.Concatenates [S3x128, S3x128] S6x128 0
  transposes_S3x64_S64x3_1_0 : S3x64.Transposes [1, 0] S64x3
  bcast_S_S64x3 : S_.BroadcastsInDim S64x3 (![] : Fin 0 → Fin S64x3.rank)
  concatenates_S64x3_S64x3_S64x6_d1 : Shape.Concatenates [S64x3, S64x3] S64x6 1
  concatenates_S64x6_S64x6_S128x6_d0 : Shape.Concatenates [S64x6, S64x6] S128x6 0
  concatenates_S64_S64_S128_d0 : Shape.Concatenates [S64, S64] S128 0
  shapeCasts_S128_S1x128 : S128.ShapeCasts S1x128
  concatenates_S3_S3_S6_d0 : Shape.Concatenates [S3, S3] S6 0
  shapeCasts_S6_S1x6 : S6.ShapeCasts S1x6
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x4096x6_S1x4096x6_0_0_0 : ∀ a, (![0, 0, 0] : Fin 3 → Nat) a + S1x4096x6.size a ≤ S1x4096x6.size a
  h_S1x4096x6 : 0 < S1x4096x6.numel
  shapeCasts_S1x4096x6_S4096x6 : S1x4096x6.ShapeCasts S4096x6
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S1x4096x128 : S4096x128.ShapeCasts S1x4096x128
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S4096x6 : S1x6.Broadcasts S4096x6
  shapeCasts_S4096x6_S1x4096x6 : S4096x6.ShapeCasts S1x4096x6
  shapeCasts_S4x131072x128_S4x262144x64 : S4x131072x128.ShapeCasts S4x262144x64
  shapeCasts_S4x131072x6_S4x262144x3 : S4x131072x6.ShapeCasts S4x262144x3
  dot_S4096x128_S128x128_S4096x128_1_0_0_1_n_n_wf : DotDims.WF S4096x128 S128x128 S4096x128 [1] [0] [0] [1] [] []
  dot_S4096x6_S6x128_S4096x128_1_0_0_1_n_n_wf : DotDims.WF S4096x6 S6x128 S4096x128 [1] [0] [0] [1] [] []
  dot_S4096x128_S128x6_S4096x6_1_0_0_1_n_n_wf : DotDims.WF S4096x128 S128x6 S4096x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x131072x128.size a
  hwx0_0 : ∀ i : grid0.Coords, EltTy.bits .f32 = 32 ∨ (Rect.block (s := S4x131072x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x6.size a ≤ S4x131072x6.size a
  hwx0_1 : ∀ i : grid0.Coords, EltTy.bits .f32 = 32 ∨ (Rect.block (s := S4x131072x6) S1x4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x128.size a ≤ S6x128.size a
  hwx0_3 : ∀ i : grid0.Coords, EltTy.bits .bf16 = 32 ∨ (Rect.block (s := S6x128) S6x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x128.size a ≤ S6x128.size a
  hwx0_6 : ∀ i : grid0.Coords, EltTy.bits .bf16 = 32 ∨ (Rect.block (s := S6x128) S6x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x6.size a ≤ S128x6.size a
  hwx0_8 : ∀ i : grid0.Coords, EltTy.bits .bf16 = 32 ∨ (Rect.block (s := S128x6) S128x6.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x6.size a ≤ S1x6.size a
  hwx0_9 : ∀ i : grid0.Coords, EltTy.bits .f32 = 32 ∨ (Rect.block (s := S1x6) S1x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x4096x128.size a ≤ S4x131072x128.size a
  hwx0_10 : ∀ i : grid0.Coords, EltTy.bits .f32 = 32 ∨ (Rect.block (s := S4x131072x128) S1x4096x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x4096x6.size a ≤ S4x131072x6.size a
  hwx0_11 : ∀ i : grid0.Coords, EltTy.bits .f32 = 32 ∨ (Rect.block (s := S4x131072x6) S1x4096x6.size (cc0_transform_11 i) (hinb0_11 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x6_S4096x6_1_0_0_1_n_n : DotDims S4096x128 S128x6 S4096x6 where
  lhsContracting := [1]
  rhsContracting := [0]
  lhsNonContracting := [0]
  rhsNonContracting := [1]
  lhsBatch := []
  rhsBatch := []
  wf := dot_S4096x128_S128x6_S4096x6_1_0_0_1_n_n_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S6x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S6x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S128x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v37) S1x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v38_0) S1x4096x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v38_1) S1x4096x6.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4x262144x64 : Shape := ⟨3, ![4, 262144, 64]⟩
abbrev S4x262144x3 : Shape := ⟨3, ![4, 262144, 3]⟩
abbrev S64x64 : Shape := ⟨2, ![64, 64]⟩
abbrev S64x3 : Shape := ⟨2, ![64, 3]⟩
abbrev S64 : Shape := ⟨1, ![64]⟩
abbrev S3x64 : Shape := ⟨2, ![3, 64]⟩
abbrev S3 : Shape := ⟨1, ![3]⟩
abbrev S1x1x64 : Shape := ⟨3, ![1, 1, 64]⟩
abbrev S_ : Shape := ⟨0, ![]⟩
abbrev S1x1x3 : Shape := ⟨3, ![1, 1, 3]⟩

abbrev nBuf : Space → Nat
  | .hbm => 62
  | .vmem => 0
  | .smem => 0
  | _ => 0

abbrev bufTy : (tb : Table) → Fin (tcTables nBuf tb) → BufTy
  | .hbm, ⟨0, _⟩ => ⟨S4x262144x64, .f32⟩
  | .hbm, ⟨1, _⟩ => ⟨S4x262144x3, .f32⟩
  | .hbm, ⟨2, _⟩ => ⟨S64x64, .f32⟩
  | .hbm, ⟨3, _⟩ => ⟨S64x3, .f32⟩
  | .hbm, ⟨4, _⟩ => ⟨S64, .f32⟩
  | .hbm, ⟨5, _⟩ => ⟨S64x64, .f32⟩
  | .hbm, ⟨6, _⟩ => ⟨S64x3, .f32⟩
  | .hbm, ⟨7, _⟩ => ⟨S64, .f32⟩
  | .hbm, ⟨8, _⟩ => ⟨S3x64, .f32⟩
  | .hbm, ⟨9, _⟩ => ⟨S3, .f32⟩
  | .hbm, ⟨10, _⟩ => ⟨S4x262144x64, .f32⟩
  | .hbm, ⟨11, _⟩ => ⟨S4x262144x64, .f32⟩
  | .hbm, ⟨12, _⟩ => ⟨S4x262144x64, .f32⟩
  | .hbm, ⟨13, _⟩ => ⟨S1x1x64, .f32⟩
  | .hbm, ⟨14, _⟩ => ⟨S4x262144x64, .f32⟩
  | .hbm, ⟨15, _⟩ => ⟨S4x262144x64, .f32⟩
  | .hbm, ⟨16, _⟩ => ⟨S_, .f32⟩
  | .hbm, ⟨17, _⟩ => ⟨S4x262144x64, .f32⟩
  | .hbm, ⟨18, _⟩ => ⟨S4x262144x64, .f32⟩
  | .hbm, ⟨19, _⟩ => ⟨S4x262144x64, .f32⟩
  | .hbm, ⟨20, _⟩ => ⟨S4x262144x64, .f32⟩
  | .hbm, ⟨21, _⟩ => ⟨S4x262144x64, .i1⟩
  | .hbm, ⟨22, _⟩ => ⟨S4x262144x64, .f32⟩
  | .hbm, ⟨23, _⟩ => ⟨S4x262144x64, .f32⟩
  | .hbm, ⟨24, _⟩ => ⟨S4x262144x64, .f32⟩
  | .hbm, ⟨25, _⟩ => ⟨S4x262144x64, .f32⟩
  | .hbm, ⟨26, _⟩ => ⟨S4x262144x64, .f32⟩
  | .hbm, ⟨27, _⟩ => ⟨S4x262144x64, .f32⟩
  | .hbm, ⟨28, _⟩ => ⟨S4x262144x64, .f32⟩
  | .hbm, ⟨29, _⟩ => ⟨S4x262144x64, .f32⟩
  | .hbm, ⟨30, _⟩ => ⟨S_, .f32⟩
  | .hbm, ⟨31, _⟩ => ⟨S4x262144x64, .f32⟩
  | .hbm, ⟨32, _⟩ => ⟨S4x262144x64, .f32⟩
  | .hbm, ⟨33, _⟩ => ⟨S_, .f32⟩
  | .hbm, ⟨34, _⟩ => ⟨S4x262144x64, .f32⟩
  | .hbm, ⟨35, _⟩ => ⟨S4x262144x64, .f32⟩
  | .hbm, ⟨36, _⟩ => ⟨S4x262144x64, .f32⟩
  | .hbm, ⟨37, _⟩ => ⟨S4x262144x64, .f32⟩
  | .hbm, ⟨38, _⟩ => ⟨S4x262144x64, .f32⟩
  | .hbm, ⟨39, _⟩ => ⟨S1x1x64, .f32⟩
  | .hbm, ⟨40, _⟩ => ⟨S4x262144x64, .f32⟩
  | .hbm, ⟨41, _⟩ => ⟨S4x262144x64, .f32⟩
  | .hbm, ⟨42, _⟩ => ⟨S4x262144x64, .f32⟩
  | .hbm, ⟨43, _⟩ => ⟨S4x262144x64, .f32⟩
  | .hbm, ⟨44, _⟩ => ⟨S_, .f32⟩
  | .hbm, ⟨45, _⟩ => ⟨S4x262144x64, .f32⟩
  | .hbm, ⟨46, _⟩ => ⟨S4x262144x64, .f32⟩
  | .hbm, ⟨47, _⟩ => ⟨S_, .f32⟩
  | .hbm, ⟨48, _⟩ => ⟨S4x262144x64, .f32⟩
  | .hbm, ⟨49, _⟩ => ⟨S4x262144x64, .f32⟩
  | .hbm, ⟨50, _⟩ => ⟨S4x262144x64, .f32⟩
  | .hbm, ⟨51, _⟩ => ⟨S4x262144x64, .f32⟩
  | .hbm, ⟨52, _⟩ => ⟨S4x262144x64, .f32⟩
  | .hbm, ⟨53, _⟩ => ⟨S_, .f32⟩
  | .hbm, ⟨54, _⟩ => ⟨S4x262144x64, .f32⟩
  | .hbm, ⟨55, _⟩ => ⟨S4x262144x64, .f32⟩
  | .hbm, ⟨56, _⟩ => ⟨S4x262144x64, .f32⟩
  | .hbm, ⟨57, _⟩ => ⟨S4x262144x3, .f32⟩
  | .hbm, ⟨58, _⟩ => ⟨S1x1x3, .f32⟩
  | .hbm, ⟨59, _⟩ => ⟨S4x262144x3, .f32⟩
  | .hbm, ⟨60, _⟩ => ⟨S4x262144x3, .f32⟩
  | .hbm, ⟨61, _⟩ => ⟨S4x262144x3, .f32⟩
  | _, _ => ⟨S4x262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_1 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_3 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x262144x64_0_1_2 : S1x1x64.BroadcastsInDim S4x262144x64 (![0, 1, 2] : Fin 3 → Fin S4x262144x64.rank)
  bcast_S_S4x262144x64 : S_.BroadcastsInDim S4x262144x64 (![] : Fin 0 → Fin S4x262144x64.rank)
  bcast_S3_S1x1x3_2 : S3.BroadcastsInDim S1x1x3 (![2] : Fin 1 → Fin S1x1x3.rank)
  bcast_S1x1x3_S4x262144x3_0_1_2 : S1x1x3.BroadcastsInDim S4x262144x3 (![0, 1, 2] : Fin 3 → Fin S4x262144x3.rank)
  dot_S4x262144x64_S64x64_S4x262144x64_2_1_01_0_n_n_wf : DotDims.WF S4x262144x64 S64x64 S4x262144x64 [2] [1] [0, 1] [0] [] []
  dot_S4x262144x3_S64x3_S4x262144x64_2_1_01_0_n_n_wf : DotDims.WF S4x262144x3 S64x3 S4x262144x64 [2] [1] [0, 1] [0] [] []
  dot_S4x262144x64_S3x64_S4x262144x3_2_1_01_0_n_n_wf : DotDims.WF S4x262144x64 S3x64 S4x262144x3 [2] [1] [0, 1] [0] [] []

variable [Facts₀]

def dot_S4x262144x64_S64x64_S4x262144x64_2_1_01_0_n_n : DotDims S4x262144x64 S64x64 S4x262144x64 where
  lhsContracting := [2]
  rhsContracting := [1]
  lhsNonContracting := [0, 1]
  rhsNonContracting := [0]
  lhsBatch := []
  rhsBatch := []
  wf := dot_S4x262144x64_S64x64_S4x262144x64_2_1_01_0_n_n_wf
def dot_S4x262144x3_S64x3_S4x262144x64_2_1_01_0_n_n : DotDims S4x262144x3 S64x3 S4x262144x64 where
  lhsContracting := [2]
  rhsContracting := [1]
  lhsNonContracting := [0, 1]
  rhsNonContracting := [0]
  lhsBatch := []
  rhsBatch := []
  wf := dot_S4x262144x3_S64x3_S4x262144x64_2_1_01_0_n_n_wf
def dot_S4x262144x64_S3x64_S4x262144x3_2_1_01_0_n_n : DotDims S4x262144x64 S3x64 S4x262144x3 where
  lhsContracting := [2]
  rhsContracting := [1]
  lhsNonContracting := [0, 1]
  rhsNonContracting := [0]
  lhsBatch := []
  rhsBatch := []
  wf := dot_S4x262144x64_S3x64_S4x262144x3_2_1_01_0_n_n_wf

class Facts : Prop extends Facts₀ where

variable [Facts]
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibLogistic.lean ====
/-
  The logistic function in its two spellings, on the extended reals.

  On a real v,  1/2 · (1 + tanh (v/2)) = 1 / (1 + e^(−v)):  with a = e^(v/2) and b = e^(−v/2), a·b = 1 and e^(−v) = b²,
  so the left side is a/(a+b) and the right side 1/(1+b²) = a·b/(a·b + b²) = a/(a+b).
  At +∞ both sides are 1 (tanh is 1 there; e^(−∞) = 0), at −∞ both are 0 (tanh is −1; 1/(1+∞) = 1·∞⁻¹ = 0).
  So the two spellings are one function of an extended real, with no finiteness assumed.
-/
import Idealize.ShloMosaic.PureOps.Ideal

noncomputable section

namespace Cert.LibLogistic

open Idealize.ShloMosaic

/-- The float word of `1.0` denotes 1. -/
theorem word_one : Ideal.ofBits .f32 0x3F800000#32 = 1 := by
  simp [Ideal.ofBits, Ideal.ieee, -EReal.coe_mul]; norm_num

/-- The float word of `0.5` denotes the real 1/2. -/
theorem word_half : Ideal.ofBits .f32 0x3F000000#32 = ((1 / 2 : ℝ) : EReal) := by
  simp [Ideal.ofBits, Ideal.ieee, -EReal.coe_mul]; norm_num

/-- On the reals: 1/2 · (1 + tanh (v/2)) = 1 / (1 + e^(−v)). -/
theorem real_half_tanh (v : ℝ) : 1 / 2 * (1 + Real.tanh (1 / 2 * v)) = 1 / (1 + Real.exp (-v)) := by
  have ha : 0 < Real.exp (1 / 2 * v) := Real.exp_pos _
  have hb : 0 < Real.exp (-(1 / 2 * v)) := Real.exp_pos _
  have hab : Real.exp (1 / 2 * v) * Real.exp (-(1 / 2 * v)) = 1 := by
    rw [← Real.exp_add]; simp
  have hbb : Real.exp (-v) = Real.exp (-(1 / 2 * v)) * Real.exp (-(1 / 2 * v)) := by
    rw [← Real.exp_add]; congr 1; ring
  rw [Real.tanh_eq_sinh_div_cosh, Real.sinh_eq, Real.cosh_eq, hbb]
  set a := Real.exp (1 / 2 * v)
  set b := Real.exp (-(1 / 2 * v))
  have hs : a + b ≠ 0 := (add_pos ha hb).ne'
  have hq : 1 + b * b ≠ 0 := (add_pos one_pos (mul_pos hb hb)).ne'
  field_simp
  linear_combination (2 * b) * hab

/-- On the extended reals, at the conventions of the ideal instance (tanh ±∞ = ±1, e^(−∞) = 0, e^(+∞) = +∞,
    x / y = x · y⁻¹ off zero with ∞⁻¹ = 0):  1/2 · (1 + tanh (1/2 · v)) = 1 / (1 + e^(−v)) for EVERY v. -/
theorem half_tanh (v : EReal) :
    ((1 / 2 : ℝ) : EReal) * (1 + Ideal.tanh (((1 / 2 : ℝ) : EReal) * v)) = Ideal.div 1 (1 + Ideal.exp (-v)) := by
  induction v using EReal.rec with
  | bot =>
    have h1 : ((1 / 2 : ℝ) : EReal) * ⊥ = ⊥ := EReal.coe_mul_bot_of_pos (by norm_num)
    rw [h1, Ideal.tanh_bot, EReal.neg_bot, Ideal.exp_top]
    have h2 : (1 : EReal) + ⊤ = ⊤ := EReal.add_top_of_ne_bot (by decide)
    rw [h2, Ideal.div, if_neg (by decide), EReal.inv_top, mul_zero]
    have h3 : (1 : EReal) + -1 = 0 := by
      have h : ((1 : ℝ) : EReal) + ((-1 : ℝ) : EReal) = ((0 : ℝ) : EReal) := by rw [← EReal.coe_add]; norm_num
      simpa using h
    rw [h3, mul_zero]
  | top =>
    have h1 : ((1 / 2 : ℝ) : EReal) * ⊤ = ⊤ := EReal.coe_mul_top_of_pos (by norm_num)
    rw [h1, Ideal.tanh_top, EReal.neg_top, Ideal.exp_bot, add_zero, Ideal.div, if_neg (by norm_num), inv_one, mul_one]
    have h4 : ((1 / 2 : ℝ) : EReal) * (1 + 1) = ((1 : ℝ) : EReal) := by
      rw [show (1 : EReal) + 1 = ((2 : ℝ) : EReal) by norm_cast, ← EReal.coe_mul]; norm_num
    simpa using h4
  | coe r =>
    have hy : (1 + Real.exp (-r)) ≠ 0 := (add_pos one_pos (Real.exp_pos _)).ne'
    rw [← EReal.coe_mul, Ideal.tanh_coe, ← EReal.coe_neg, Ideal.exp_coe]
    have e1 : (1 : EReal) + ((Real.tanh (1 / 2 * r) : ℝ) : EReal) = ((1 + Real.tanh (1 / 2 * r) : ℝ) : EReal) := by norm_cast
    have e2 : (1 : EReal) + ((Real.exp (-r) : ℝ) : EReal) = ((1 + Real.exp (-r) : ℝ) : EReal) := by norm_cast
    rw [e1, e2, Ideal.div_coe hy, one_mul, ← EReal.coe_mul, real_half_tanh]

end Cert.LibLogistic

end
-- ==== Proof.Cell.lean ====
/-
  One update of a leaky recurrent cell on the extended reals, in the two spellings the two programs use.

  The cell.  From a state entry h, a time-constant score t and a gate score p,

      τ = a + softplus(t) · s,        h' = h + a · ( (−h) / τ + σ(p) ),

  with the float words a (the word of 0.1, used both as the floor of τ and as the step) and s (the word of 9.9)
  taken as they are, never evaluated.  softplus is spelt max(t, 0) + log1p(exp(−|t − 0|)), guarded by a test
  "t − 0 differs from itself" that no extended real passes.  The two programs spell three things differently:
  the test (ordered against unordered "not equal": one comparison on a linear order), the negations (0 − x
  against −x: the word of zero is 0), and the logistic σ(p) (one operation against 1 / (1 + exp(−p)): the
  operation is that quotient, and the word of one is 1).  So the two spellings are one function.
-/
import Idealize.ShloMosaic.PureOps.Ideal
import Idealize.ShloMosaic.PureOps.Ideal.Laws
import proofs.«124539_j34935263985783_2_alg».proof.Proof.LibLogistic

noncomputable section

namespace Cert.Cell

open Idealize.ShloMosaic

/-- The word of zero. -/
abbrev w0 : EReal := Ideal.ofBits .f32 0x00000000#32
/-- The word of 0.1: the floor of the time constant, and the step. -/
abbrev wA : EReal := Ideal.ofBits .f32 0x3DCCCCCD#32
/-- The word of 9.9: the span of the time constant. -/
abbrev wS : EReal := Ideal.ofBits .f32 0x411E6666#32
/-- The word of one. -/
abbrev w1 : EReal := Ideal.ofBits .f32 0x3F800000#32

theorem w0_eq : w0 = 0 := Ideal.ofBits_zero_f32

/-- softplus as the host spells it: the guard is the unordered "not equal", the negation a negation. -/
def softplusR (t : EReal) : EReal :=
  Scalar.select (Ideal.cmp .une (t - w0) (t - w0)) (t + w0)
    (max t w0 + Ideal.log1p (Ideal.exp (-(max (t - w0) (-(t - w0))))))

/-- softplus as the kernel spells it: the guard is the ordered "not equal", the negation 0 − x. -/
def softplusK (t : EReal) : EReal :=
  Scalar.select (Ideal.cmp .one (t - w0) (t - w0)) (t + w0)
    (max t w0 + Ideal.log1p (Ideal.exp (w0 - (max (t - w0) (-(t - w0))))))

theorem softplusK_eq (t : EReal) : softplusK t = softplusR t := by
  unfold softplusK softplusR
  rw [show (w0 - max (t - w0) (-(t - w0))) = -(max (t - w0) (-(t - w0))) by rw [w0_eq, zero_sub]]
  rfl

/-- The cell as the host spells it. -/
def cellR (h t p : EReal) : EReal :=
  h + wA * (Ideal.div (-h) (wA + softplusR t * wS) + Ideal.div w1 (w1 + Ideal.exp (-p)))

/-- The cell as the kernel spells it. -/
def cellK (h t p : EReal) : EReal :=
  h + wA * (Ideal.div (w0 - h) (wA + softplusK t * wS) + Ideal.logistic p)

theorem cellK_eq (h t p : EReal) : cellK h t p = cellR h t p := by
  unfold cellK cellR
  rw [softplusK_eq, w0_eq, zero_sub, Ideal.logistic, show w1 = 1 from Cert.LibLogistic.word_one]

end Cert.Cell

end
-- ==== Proof.KernelBody.lean ====
/-
  What the kernel's body computes on one block, entry by entry, at the ideal values.

  A block is 4096 packed rows.  Row r holds 128 state entries (two original rows of 64, side by side) and 6 input
  entries (two original rows of 3).  With the packed weights w, u (128 × 128 and 6 × 128) and a bias row b, the score
  of row r at lane l is   Σ_k x0(r, k) · w(k, l)  +  Σ_k x1(r, k) · u(k, l)  +  b(l):   a matrix product into a zero
  accumulator is the plain sum over the contracted axis, a change of float format is the identity, and a 1 × 128 row
  broadcast over the rows is read at its lane.  The new state at (r, l) is the cell update of x0(r, l) with the
  time-constant score and the gate score; the output at (r, q) is tanh of the new state's row r against the packed
  output weights, plus its bias.
-/
import proofs.«124539_j34935263985783_2_alg».proof.Proof.Gen.KernelIdeal.Skeleton
import proofs.«124539_j34935263985783_2_alg».proof.Proof.LibPlainMatmul
import proofs.«124539_j34935263985783_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Cell

/-- The score of packed row r at lane l. -/
def score (x0 : FVec Ideal S1x4096x128 .f32) (x1 : FVec Ideal S1x4096x6 .f32) (w : FVec Ideal S128x128 .bf16)
    (u : FVec Ideal S6x128 .bf16) (b : FVec Ideal S1x128 .f32) (r : Fin 4096) (l : Fin 128) : EReal :=
  (∑ k : Fin 128, x0 (ix3 (0 : Fin 1) r k) * w (ix2 k l) + ∑ k : Fin 6, x1 (ix3 (0 : Fin 1) r k) * u (ix2 k l))
    + b (ix2 (0 : Fin 1) l)

/-- The new state of packed row r at lane l. -/
def hnewB (x0 : FVec Ideal S1x4096x128 .f32) (x1 : FVec Ideal S1x4096x6 .f32) (x2 : FVec Ideal S128x128 .bf16)
    (x3 : FVec Ideal S6x128 .bf16) (x4 : FVec Ideal S1x128 .f32) (x5 : FVec Ideal S128x128 .bf16)
    (x6 : FVec Ideal S6x128 .bf16) (x7 : FVec Ideal S1x128 .f32) (r : Fin 4096) (l : Fin 128) : EReal :=
  cellK (x0 (ix3 (0 : Fin 1) r l)) (score x0 x1 x2 x3 x4 r l) (score x0 x1 x5 x6 x7 r l)

theorem pay4_apply (x0 : FVec Ideal S1x4096x128 .f32) (r : Fin 4096) (l : Fin 128) :
    k0_pay4 (F := Ideal) x0 (ix2 r l) = x0 (ix3 (0 : Fin 1) r l) := by
  unfold k0_pay4
  exact shapeCast_1ab_ab_apply x0 _ r l

theorem pay5_apply (x0 : FVec Ideal S1x4096x128 .f32) (r : Fin 4096) (l : Fin 128) :
    k0_pay5 (F := Ideal) x0 (ix2 r l) = x0 (ix3 (0 : Fin 1) r l) := by
  unfold k0_pay5
  exact pay4_apply x0 r l

theorem pay6_apply (x1 : FVec Ideal S1x4096x6 .f32) (r : Fin 4096) (k : Fin 6) :
    k0_pay6 (F := Ideal) x1 (ix2 r k) = x1 (ix3 (0 : Fin 1) r k) := by
  unfold k0_pay6
  exact shapeCast_1ab_ab_apply x1 _ r k

theorem pay8_eq (x5 : FVec Ideal S128x128 .bf16) : k0_pay8 (F := Ideal) x5 = x5 := by
  unfold k0_pay8
  exact shapeCast_self x5 _

/-- Two products into zero accumulators, added, plus a bias row laid over the rows: the score's shape. -/
theorem affine_apply (a : FVec Ideal S4096x128 .bf16) (a1 : FVec Ideal S4096x6 .bf16) (w : FVec Ideal S128x128 .bf16)
    (u : FVec Ideal S6x128 .bf16) (b : FVec Ideal S1x128 .f32) (r : Fin 4096) (l : Fin 128) :
    addf (addf (matmul dot_S4096x128_S128x128_S4096x128_1_0_0_1_n_n none a w (constant (F := Ideal) S4096x128 .f32 0x00000000#32))
        (matmul dot_S4096x6_S6x128_S4096x128_1_0_0_1_n_n none a1 (shapeCast S6x128 u shapeCasts_S6x128_S6x128) (constant (F := Ideal) S4096x128 .f32 0x00000000#32)))
      (broadcastTo S4096x128 (shapeCast S1x128 b shapeCasts_S1x128_S1x128) broadcasts_S1x128_S4096x128) (ix2 r l)
    = (∑ k : Fin 128, a (ix2 r k) * w (ix2 k l) + ∑ k : Fin 6, a1 (ix2 r k) * u (ix2 k l)) + b (ix2 (0 : Fin 1) l) := by
  rw [shapeCast_self, shapeCast_self]
  show (FloatOps.matmul (DotDims.plain 4096 128 128) none a w (constant (F := Ideal) ⟨2, ![4096, 128]⟩ .f32 0x00000000#32) (ix2 r l)
      + FloatOps.matmul (DotDims.plain 4096 6 128) none a1 u (constant (F := Ideal) ⟨2, ![4096, 128]⟩ .f32 0x00000000#32) (ix2 r l))
      + broadcastTo S4096x128 b broadcasts_S1x128_S4096x128 (ix2 r l) = _
  rw [Cert.PlainMatmul.matmul_zero_apply, Cert.PlainMatmul.matmul_zero_apply, broadcastTo_1b_ab_apply]

/-- The sum of the two products and the bias row, as the body spells it. -/
def preScore (a : FVec Ideal S4096x128 .bf16) (a1 : FVec Ideal S4096x6 .bf16) (w : FVec Ideal S128x128 .bf16)
    (u : FVec Ideal S6x128 .bf16) (b : FVec Ideal S1x128 .f32) : FVec Ideal S4096x128 .f32 :=
  addf (addf (matmul dot_S4096x128_S128x128_S4096x128_1_0_0_1_n_n none a w (constant (F := Ideal) S4096x128 .f32 0x00000000#32))
      (matmul dot_S4096x6_S6x128_S4096x128_1_0_0_1_n_n none a1 (shapeCast S6x128 u shapeCasts_S6x128_S6x128) (constant (F := Ideal) S4096x128 .f32 0x00000000#32)))
    (broadcastTo S4096x128 (shapeCast S1x128 b shapeCasts_S1x128_S1x128) broadcasts_S1x128_S4096x128)

theorem preScore_apply (a : FVec Ideal S4096x128 .bf16) (a1 : FVec Ideal S4096x6 .bf16) (w : FVec Ideal S128x128 .bf16)
    (u : FVec Ideal S6x128 .bf16) (b : FVec Ideal S1x128 .f32) (r : Fin 4096) (l : Fin 128) :
    preScore a a1 w u b (ix2 r l)
      = (∑ k : Fin 128, a (ix2 r k) * w (ix2 k l) + ∑ k : Fin 6, a1 (ix2 r k) * u (ix2 k l)) + b (ix2 (0 : Fin 1) l) :=
  affine_apply a a1 w u b r l

/-- From a score to the time constant, lane by lane, as the body spells it. -/
def tauTail (v16 : FVec Ideal S4096x128 .f32) : FVec Ideal S4096x128 .f32 :=
  addf (broadcast S4096x128 (Scalar.ofBits (F := Ideal) .f32 0x3DCCCCCD#32))
    (mulf (select (cmpf .one (subf v16 (broadcast S4096x128 (Scalar.ofBits (F := Ideal) .f32 0x00000000#32)))
                (subf v16 (broadcast S4096x128 (Scalar.ofBits (F := Ideal) .f32 0x00000000#32))))
            (addf v16 (broadcast S4096x128 (Scalar.ofBits (F := Ideal) .f32 0x00000000#32)))
            (addf (maximumf v16 (broadcast S4096x128 (Scalar.ofBits (F := Ideal) .f32 0x00000000#32)))
              (log1p (exp (subf (broadcast S4096x128 (Scalar.ofBits (F := Ideal) .f32 0x00000000#32))
                (absf (subf v16 (broadcast S4096x128 (Scalar.ofBits (F := Ideal) .f32 0x00000000#32)))))))))
      (broadcast S4096x128 (Scalar.ofBits (F := Ideal) .f32 0x411E6666#32)))

theorem tauTail_apply (v16 : FVec Ideal S4096x128 .f32) (i : S4096x128.Idx) :
    tauTail v16 i = wA + softplusK (v16 i) * wS := rfl

theorem pay7_eq (x0 : FVec Ideal S1x4096x128 .f32) (x1 : FVec Ideal S1x4096x6 .f32) (x2 : FVec Ideal S128x128 .bf16)
    (x3 : FVec Ideal S6x128 .bf16) (x4 : FVec Ideal S1x128 .f32) :
    k0_pay7 (F := Ideal) x0 x1 x2 x3 x4
      = tauTail (preScore (k0_pay5 x0) (k0_pay6 x1) (shapeCast S128x128 x2 shapeCasts_S128x128_S128x128) x3 x4) := rfl

theorem pay7_apply (x0 : FVec Ideal S1x4096x128 .f32) (x1 : FVec Ideal S1x4096x6 .f32) (x2 : FVec Ideal S128x128 .bf16)
    (x3 : FVec Ideal S6x128 .bf16) (x4 : FVec Ideal S1x128 .f32) (r : Fin 4096) (l : Fin 128) :
    k0_pay7 (F := Ideal) x0 x1 x2 x3 x4 (ix2 r l) = wA + softplusK (score x0 x1 x2 x3 x4 r l) * wS := by
  rw [pay7_eq, tauTail_apply, preScore_apply, shapeCast_self]
  simp only [pay5_apply, pay6_apply]
  rfl

/-- From the state, the time constant and the gate score to the new state, lane by lane, as the body spells it. -/
def stateTail (v1 v34 v45 : FVec Ideal S4096x128 .f32) : FVec Ideal S4096x128 .f32 :=
  addf v1 (mulf (broadcast S4096x128 (Scalar.ofBits (F := Ideal) .f32 0x3DCCCCCD#32))
    (addf (divf (subf (broadcast S4096x128 (Scalar.ofBits (F := Ideal) .f32 0x00000000#32)) v1) v34) (logistic v45)))

theorem stateTail_apply (v1 v34 v45 : FVec Ideal S4096x128 .f32) (i : S4096x128.Idx) :
    stateTail v1 v34 v45 i = v1 i + wA * (Ideal.div (w0 - v1 i) (v34 i) + Ideal.logistic (v45 i)) := rfl

theorem pay1_eq (v1 : FVec Ideal S4096x128 .f32) (v4 : FVec Ideal S4096x128 .bf16) (v5 : FVec Ideal S4096x6 .bf16)
    (v34 : FVec Ideal S4096x128 .f32) (v36 : FVec Ideal S128x128 .bf16) (v38 : FVec Ideal S6x128 .bf16) (v42 : FVec Ideal S1x128 .f32) :
    k0_pay1 (F := Ideal) v1 v4 v5 v34 v36 (constant S4096x128 .f32 0x00000000#32) v38 v42
      = stateTail v1 v34 (preScore v4 v5 v36 v38 v42) := rfl

/-- The body's new state at packed row r, lane l. -/
theorem pay1_apply (x0 : FVec Ideal S1x4096x128 .f32) (x1 : FVec Ideal S1x4096x6 .f32) (x2 : FVec Ideal S128x128 .bf16)
    (x3 : FVec Ideal S6x128 .bf16) (x4 : FVec Ideal S1x128 .f32) (x5 : FVec Ideal S128x128 .bf16)
    (x6 : FVec Ideal S6x128 .bf16) (x7 : FVec Ideal S1x128 .f32) (r : Fin 4096) (l : Fin 128) :
    k0_pay1 (F := Ideal) (k0_pay4 x0) (k0_pay5 x0) (k0_pay6 x1) (k0_pay7 x0 x1 x2 x3 x4) (k0_pay8 x5)
        (constant S4096x128 .f32 0x00000000#32) x6 x7 (ix2 r l)
      = hnewB x0 x1 x2 x3 x4 x5 x6 x7 r l := by
  rw [pay1_eq, stateTail_apply, pay4_apply, pay7_apply, pay8_eq, preScore_apply]
  simp only [pay5_apply, pay6_apply]
  rfl

/-- The block stored for the new state, at (0, r, l). -/
theorem pay2_apply (x0 : FVec Ideal S1x4096x128 .f32) (x1 : FVec Ideal S1x4096x6 .f32) (x2 : FVec Ideal S128x128 .bf16)
    (x3 : FVec Ideal S6x128 .bf16) (x4 : FVec Ideal S1x128 .f32) (x5 : FVec Ideal S128x128 .bf16)
    (x6 : FVec Ideal S6x128 .bf16) (x7 : FVec Ideal S1x128 .f32) (u : Fin 1) (r : Fin 4096) (l : Fin 128) :
    k0_pay2 (F := Ideal) (k0_pay4 x0) (k0_pay5 x0) (k0_pay6 x1) (k0_pay7 x0 x1 x2 x3 x4) (k0_pay8 x5)
        (constant S4096x128 .f32 0x00000000#32) x6 x7 (ix3 u r l)
      = hnewB x0 x1 x2 x3 x4 x5 x6 x7 r l := by
  unfold k0_pay2
  rw [shapeCast_ab_1ab_apply]
  exact pay1_apply x0 x1 x2 x3 x4 x5 x6 x7 r l

/-- The block stored for the output, at (0, r, q): tanh of the new state's row against the packed output weights, plus
    the bias. -/
theorem pay3_apply (x0 : FVec Ideal S1x4096x128 .f32) (x1 : FVec Ideal S1x4096x6 .f32) (x2 : FVec Ideal S128x128 .bf16)
    (x3 : FVec Ideal S6x128 .bf16) (x4 : FVec Ideal S1x128 .f32) (x5 : FVec Ideal S128x128 .bf16)
    (x6 : FVec Ideal S6x128 .bf16) (x7 : FVec Ideal S1x128 .f32) (x8 : FVec Ideal S128x6 .bf16) (x9 : FVec Ideal S1x6 .f32)
    (u : Fin 1) (r : Fin 4096) (q : Fin 6) :
    k0_pay3 (F := Ideal) (k0_pay4 x0) (k0_pay5 x0) (k0_pay6 x1) (k0_pay7 x0 x1 x2 x3 x4) (k0_pay8 x5)
        (constant S4096x128 .f32 0x00000000#32) x6 x7 x8 x9 (ix3 u r q)
      = Ideal.tanh ((∑ k : Fin 128, hnewB x0 x1 x2 x3 x4 x5 x6 x7 r k * x8 (ix2 k q)) + x9 (ix2 (0 : Fin 1) q)) := by
  unfold k0_pay3
  rw [shapeCast_ab_1ab_apply]
  show Ideal.tanh (FloatOps.matmul (DotDims.plain 4096 128 6) none
        (truncf .bf16 (k0_pay1 (F := Ideal) (k0_pay4 x0) (k0_pay5 x0) (k0_pay6 x1) (k0_pay7 x0 x1 x2 x3 x4) (k0_pay8 x5)
          (constant S4096x128 .f32 0x00000000#32) x6 x7) bitsLt_bf16_f32)
        (shapeCast S128x6 x8 shapeCasts_S128x6_S128x6) (constant (F := Ideal) ⟨2, ![4096, 6]⟩ .f32 0x00000000#32) (ix2 r q)
      + broadcastTo S4096x6 (shapeCast S1x6 x9 shapeCasts_S1x6_S1x6) broadcasts_S1x6_S4096x6 (ix2 r q)) = _
  rw [shapeCast_self, shapeCast_self, Cert.PlainMatmul.matmul_zero_apply, broadcastTo_1b_ab_apply]
  congr 2
  refine Finset.sum_congr rfl fun k _ => ?_
  rw [truncf_apply, pay1_apply]

end Cert.KernelIdeal.Body

end
-- ==== Proof.KernelValue.lean ====
/-
  The kernel's two result arrays after the run, as whole-array functions of the ten staged arrays.

  Grid point t works on block (b, n) of the packed state: batch b, packed rows 4096·n … 4096·n + 4095.  The state and
  input windows and both output windows move together; the eight weight and bias windows stay on their whole arrays.
  So what point t writes back to either output is its block of one function of the staged arrays: the new state
  P10 at (b, r, l) is the cell update of the packed state there with the two scores of packed row (b, r) at lane l,
  and the output P11 at (b, r, q) is tanh of the new state's packed row against the packed output weights plus the
  bias.  The blocks tile both output arrays, so after the run the arrays are P10 and P11; the two host reshapes
  after the region then read them with each packed row taken apart again.
-/
import proofs.«124539_j34935263985783_2_alg».proof.Proof.Gen.KernelIdeal.Frame
import proofs.«124539_j34935263985783_2_alg».proof.Proof.KernelBody
import Idealize.ShloMosaic.Lib.Pipeline.Value
import Idealize.ShloMosaic.Lib.StableHlo.Run

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx Cert.Cell Cert.KernelIdeal.Body
open Idealize.ShloMosaic.Pipeline (Dat)

/-- The score of packed row (a, r) at lane l, over the whole arrays. -/
def scoreP (a0 : S4x131072x128.Idx → EReal) (a1 : S4x131072x6.Idx → EReal) (w : S128x128.Idx → EReal)
    (u : S6x128.Idx → EReal) (b : S1x128.Idx → EReal) (a : Fin 4) (r : Fin 131072) (l : Fin 128) : EReal :=
  (∑ k : Fin 128, a0 (ix3 a r k) * w (ix2 k l) + ∑ k : Fin 6, a1 (ix3 a r k) * u (ix2 k l)) + b (ix2 (0 : Fin 1) l)

/-- The packed new state, over the whole arrays. -/
def P10 (a0 : S4x131072x128.Idx → EReal) (a1 : S4x131072x6.Idx → EReal) (a2 : S128x128.Idx → EReal)
    (a3 : S6x128.Idx → EReal) (a4 : S1x128.Idx → EReal) (a5 : S128x128.Idx → EReal) (a6 : S6x128.Idx → EReal)
    (a7 : S1x128.Idx → EReal) : S4x131072x128.Idx → EReal := fun i =>
  cellK (a0 i) (scoreP a0 a1 a2 a3 a4 (i 0) (i 1) (i 2)) (scoreP a0 a1 a5 a6 a7 (i 0) (i 1) (i 2))

/-- The packed output, over the whole arrays. -/
def P11 (a0 : S4x131072x128.Idx → EReal) (a1 : S4x131072x6.Idx → EReal) (a2 : S128x128.Idx → EReal)
    (a3 : S6x128.Idx → EReal) (a4 : S1x128.Idx → EReal) (a5 : S128x128.Idx → EReal) (a6 : S6x128.Idx → EReal)
    (a7 : S1x128.Idx → EReal) (a8 : S128x6.Idx → EReal) (a9 : S1x6.Idx → EReal) : S4x131072x6.Idx → EReal := fun i =>
  Ideal.tanh ((∑ k : Fin 128, P10 a0 a1 a2 a3 a4 a5 a6 a7 (ix3 (i 0) (i 1) k) * a8 (ix2 k (i 2))) + a9 (ix2 (0 : Fin 1) (i 2)))

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid's 128 points: the state, input and both output windows share their
    block indices on the batch and row axes and sit at 0 on the lane axis; the weight and bias windows sit at (0, 0). -/
theorem idx_facts : ∀ t : Fin cfg0.N,
    win0_0.index t (0 : Fin 3) = win0_10.index t (0 : Fin 3) ∧ win0_0.index t (1 : Fin 3) = win0_10.index t (1 : Fin 3)
    ∧ win0_0.index t (2 : Fin 3) = 0
    ∧ win0_1.index t (0 : Fin 3) = win0_10.index t (0 : Fin 3) ∧ win0_1.index t (1 : Fin 3) = win0_10.index t (1 : Fin 3)
    ∧ win0_1.index t (2 : Fin 3) = 0
    ∧ win0_11.index t (0 : Fin 3) = win0_10.index t (0 : Fin 3) ∧ win0_11.index t (1 : Fin 3) = win0_10.index t (1 : Fin 3)
    ∧ win0_11.index t (2 : Fin 3) = 0 ∧ win0_10.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Every (batch, row block) is some point's. -/
theorem idx_onto : ∀ (q0 : Fin 4) (q1 : Fin 32), ∃ t : Fin cfg0.N, win0_10.index t = ![q0.val, q1.val, 0] :=
  (by decide +kernel : ∀ (q0 : Fin 4) (q1 : Fin 32), ∃ t : Fin grid0.N, win0_10.index t = ![q0.val, q1.val, 0])

/-! ## Each input window's block at a point, read where it sits in its array -/

theorem read0 (c : Dev nD) (t : Fin cfg0.N) (r : Fin 4096) (k : Fin 128) (i0 : Fin 4) (i1 : Fin 131072)
    (h0 : i0.val = win0_10.index t (0 : Fin 3)) (h1 : i1.val = win0_10.index t (1 : Fin 3) * 4096 + r.val) :
    iblk m c 0 t (ix3 (0 : Fin 1) r k) = V m c main_v0 (ix3 i0 i1 k) := by
  obtain ⟨f00, f01, f02, f10, f11, f12, -, -, -, -, -, -, -, -, -, -, -, -, -, -, -, -, -, -, -, -⟩ := idx_facts t
  show V m c main_v0 (((cfg0.win 0).blk t).view.emb (ix3 (0 : Fin 1) r k)) = _
  refine congrArg _ (funext fun a => Fin.ext ?_)
  match a with
  | ⟨0, _⟩ => show win0_0.index t (0 : Fin 3) * 1 + 1 * (0 : ℕ) = i0.val; omega
  | ⟨1, _⟩ => show win0_0.index t (1 : Fin 3) * 4096 + 1 * r.val = i1.val; omega
  | ⟨2, _⟩ => show win0_0.index t (2 : Fin 3) * 128 + 1 * k.val = k.val; omega

theorem read1 (c : Dev nD) (t : Fin cfg0.N) (r : Fin 4096) (k : Fin 6) (i0 : Fin 4) (i1 : Fin 131072)
    (h0 : i0.val = win0_10.index t (0 : Fin 3)) (h1 : i1.val = win0_10.index t (1 : Fin 3) * 4096 + r.val) :
    iblk m c 1 t (ix3 (0 : Fin 1) r k) = V m c main_v1 (ix3 i0 i1 k) := by
  obtain ⟨f00, f01, f02, f10, f11, f12, -, -, -, -, -, -, -, -, -, -, -, -, -, -, -, -, -, -, -, -⟩ := idx_facts t
  show V m c main_v1 (((cfg0.win 1).blk t).view.emb (ix3 (0 : Fin 1) r k)) = _
  refine congrArg _ (funext fun a => Fin.ext ?_)
  match a with
  | ⟨0, _⟩ => show win0_1.index t (0 : Fin 3) * 1 + 1 * (0 : ℕ) = i0.val; omega
  | ⟨1, _⟩ => show win0_1.index t (1 : Fin 3) * 4096 + 1 * r.val = i1.val; omega
  | ⟨2, _⟩ => show win0_1.index t (2 : Fin 3) * 6 + 1 * k.val = k.val; omega

theorem read2 (c : Dev nD) (t : Fin cfg0.N) (k : Fin 128) (q : Fin 128) :
    iblk m c 2 t (ix2 k q) = V m c main_v7 (ix2 k q) := by
  obtain ⟨-, -, -, -, -, -, -, -, -, -, f20, f21, f30, f31, f40, f41, f50, f51, f60, f61, f70, f71, f80, f81, f90, f91⟩ := idx_facts t
  show V m c main_v7 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem read3 (c : Dev nD) (t : Fin cfg0.N) (k : Fin 6) (q : Fin 128) :
    iblk m c 3 t (ix2 k q) = V m c main_v13 (ix2 k q) := by
  obtain ⟨-, -, -, -, -, -, -, -, -, -, f20, f21, f30, f31, f40, f41, f50, f51, f60, f61, f70, f71, f80, f81, f90, f91⟩ := idx_facts t
  show V m c main_v13 (((cfg0.win 3).blk t).view.emb (ix2 k q)) = _
  refine congrArg _ (funext fun a => Fin.ext ?_)
  match a with
  | ⟨0, _⟩ => show win0_3.index t (0 : Fin 2) * 6 + 1 * k.val = k.val; omega
  | ⟨1, _⟩ => show win0_3.index t (1 : Fin 2) * 128 + 1 * q.val = q.val; omega

theorem read4 (c : Dev nD) (t : Fin cfg0.N) (q : Fin 128) :
    iblk m c 4 t (ix2 (0 : Fin 1) q) = V m c main_v33 (ix2 (0 : Fin 1) q) := by
  obtain ⟨-, -, -, -, -, -, -, -, -, -, f20, f21, f30, f31, f40, f41, f50, f51, f60, f61, f70, f71, f80, f81, f90, f91⟩ := idx_facts t
  show V m c main_v33 (((cfg0.win 4).blk t).view.emb (ix2 (0 : Fin 1) q)) = _
  refine congrArg _ (funext fun a => Fin.ext ?_)
  match a with
  | ⟨0, _⟩ => show win0_4.index t (0 : Fin 2) * 1 + 1 * (0 : ℕ) = 0; omega
  | ⟨1, _⟩ => show win0_4.index t (1 : Fin 2) * 128 + 1 * q.val = q.val; omega

theorem read5 (c : Dev nD) (t : Fin cfg0.N) (k : Fin 128) (q : Fin 128) :
    iblk m c 5 t (ix2 k q) = V m c main_v19 (ix2 k q) := by
  obtain ⟨-, -, -, -, -, -, -, -, -, -, f20, f21, f30, f31, f40, f41, f50, f51, f60, f61, f70, f71, f80, f81, f90, f91⟩ := idx_facts t
  show V m c main_v19 (((cfg0.win 5).blk t).view.emb (ix2 k q)) = _
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

theorem read6 (c : Dev nD) (t : Fin cfg0.N) (k : Fin 6) (q : Fin 128) :
    iblk m c 6 t (ix2 k q) = V m c main_v25 (ix2 k q) := by
  obtain ⟨-, -, -, -, -, -, -, -, -, -, f20, f21, f30, f31, f40, f41, f50, f51, f60, f61, f70, f71, f80, f81, f90, f91⟩ := idx_facts t
  show V m c main_v25 (((cfg0.win 6).blk t).view.emb (ix2 k q)) = _
  refine congrArg _ (funext fun a => Fin.ext ?_)
  match a with
  | ⟨0, _⟩ => show win0_6.index t (0 : Fin 2) * 6 + 1 * k.val = k.val; omega
  | ⟨1, _⟩ => show win0_6.index t (1 : Fin 2) * 128 + 1 * q.val = q.val; omega

theorem read7 (c : Dev nD) (t : Fin cfg0.N) (q : Fin 128) :
    iblk m c 7 t (ix2 (0 : Fin 1) q) = V m c main_v35 (ix2 (0 : Fin 1) q) := by
  obtain ⟨-, -, -, -, -, -, -, -, -, -, f20, f21, f30, f31, f40, f41, f50, f51, f60, f61, f70, f71, f80, f81, f90, f91⟩ := idx_facts t
  show V m c main_v35 (((cfg0.win 7).blk t).view.emb (ix2 (0 : Fin 1) q)) = _
  refine congrArg _ (funext fun a => Fin.ext ?_)
  match a with
  | ⟨0, _⟩ => show win0_7.index t (0 : Fin 2) * 1 + 1 * (0 : ℕ) = 0; omega
  | ⟨1, _⟩ => show win0_7.index t (1 : Fin 2) * 128 + 1 * q.val = q.val; omega

theorem read8 (c : Dev nD) (t : Fin cfg0.N) (k : Fin 128) (q : Fin 6) :
    iblk m c 8 t (ix2 k q) = V m c main_v31 (ix2 k q) := by
  obtain ⟨-, -, -, -, -, -, -, -, -, -, f20, f21, f30, f31, f40, f41, f50, f51, f60, f61, f70, f71, f80, f81, f90, f91⟩ := idx_facts t
  show V m c main_v31 (((cfg0.win 8).blk t).view.emb (ix2 k q)) = _
  refine congrArg _ (funext fun a => Fin.ext ?_)
  match a with
  | ⟨0, _⟩ => show win0_8.index t (0 : Fin 2) * 128 + 1 * k.val = k.val; omega
  | ⟨1, _⟩ => show win0_8.index t (1 : Fin 2) * 6 + 1 * q.val = q.val; omega

theorem read9 (c : Dev nD) (t : Fin cfg0.N) (q : Fin 6) :
    iblk m c 9 t (ix2 (0 : Fin 1) q) = V m c main_v37 (ix2 (0 : Fin 1) q) := by
  obtain ⟨-, -, -, -, -, -, -, -, -, -, f20, f21, f30, f31, f40, f41, f50, f51, f60, f61, f70, f71, f80, f81, f90, f91⟩ := idx_facts t
  show V m c main_v37 (((cfg0.win 9).blk t).view.emb (ix2 (0 : Fin 1) q)) = _
  refine congrArg _ (funext fun a => Fin.ext ?_)
  match a with
  | ⟨0, _⟩ => show win0_9.index t (0 : Fin 2) * 1 + 1 * (0 : ℕ) = 0; omega
  | ⟨1, _⟩ => show win0_9.index t (1 : Fin 2) * 6 + 1 * q.val = q.val; omega

/-- The body's new state on point t's blocks, at row r and lane l of the block, is the packed new state at the array
    index that sits there: batch = the block's, row = 4096 · (row block) + r, lane = l. -/
theorem hnewB_blk (c : Dev nD) (t : Fin cfg0.N) (r : Fin 4096) (l : Fin 128) (i0 : Fin 4) (i1 : Fin 131072)
    (h0 : i0.val = win0_10.index t (0 : Fin 3)) (h1 : i1.val = win0_10.index t (1 : Fin 3) * 4096 + r.val) :
    hnewB (iblk m c 0 t) (iblk m c 1 t) (iblk m c 2 t) (iblk m c 3 t) (iblk m c 4 t) (iblk m c 5 t) (iblk m c 6 t) (iblk m c 7 t) r l
      = P10 (V m c main_v0) (V m c main_v1) (V m c main_v7) (V m c main_v13) (V m c main_v33) (V m c main_v19)
          (V m c main_v25) (V m c main_v35) (ix3 i0 i1 l) := by
  unfold hnewB P10 score scoreP
  refine congr (congr (congrArg cellK (read0 m c t r l i0 i1 h0 h1)) ?_) ?_
  · exact congrArg₂ (· + ·) (congrArg₂ (· + ·)
      (Finset.sum_congr rfl fun k _ => congrArg₂ (· * ·) (read0 m c t r k i0 i1 h0 h1) (read2 m c t k l))
      (Finset.sum_congr rfl fun k _ => congrArg₂ (· * ·) (read1 m c t r k i0 i1 h0 h1) (read3 m c t k l))) (read4 m c t l)
  · exact congrArg₂ (· + ·) (congrArg₂ (· + ·)
      (Finset.sum_congr rfl fun k _ => congrArg₂ (· * ·) (read0 m c t r k i0 i1 h0 h1) (read5 m c t k l))
      (Finset.sum_congr rfl fun k _ => congrArg₂ (· * ·) (read1 m c t r k i0 i1 h0 h1) (read6 m c t k l))) (read7 m c t l)

end Cert.KernelIdeal.KVal

end
-- ==== Proof.KernelRun.lean ====
/-
  The kernel's run, read: after every execution the two results are the packed new state and the packed output of the
  staged arrays, each packed row taken apart, and the arguments are as launched.

  What a point writes back is its block of the whole-array function (the body's block result, read where the block
  sits); every index of either output array lies in the block of the point whose batch is the index's and whose row
  block is the index's row divided by 4096; so the arrays end as those functions, and the two reshapes after the
  region read them.
-/
import proofs.«124539_j34935263985783_2_alg».proof.Proof.Gen.KernelIdeal.Frame
import proofs.«124539_j34935263985783_2_alg».proof.Proof.KernelValue
import Idealize.ShloMosaic.Lib.Pipeline.Value
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.SL.Sem
open Idealize.ShloMosaic.ValueIdx Cert.Cell Cert.KernelIdeal.Body Cert.KernelIdeal.KVal
open Idealize.ShloMosaic.Pipeline (Dat)

variable (m : (ℓ : Loc nD τ sig) → Buf (Elt Ideal) ℓ) (ρ : Dev nD → PrngReg)

/-- The packed new state of the arrays the region finds. -/
abbrev S10 (c : Dev nD) : S4x131072x128.Idx → EReal :=
  P10 (V m c main_v0) (V m c main_v1) (V m c main_v7) (V m c main_v13) (V m c main_v33) (V m c main_v19) (V m c main_v25) (V m c main_v35)

/-- The packed output of the arrays the region finds. -/
abbrev S11 (c : Dev nD) : S4x131072x6.Idx → EReal :=
  P11 (V m c main_v0) (V m c main_v1) (V m c main_v7) (V m c main_v13) (V m c main_v33) (V m c main_v19) (V m c main_v25) (V m c main_v35) (V m c main_v31) (V m c main_v37)

/-- The block indices stay inside the arrays. -/
theorem idx_bounds : ∀ t : Fin cfg0.N, win0_10.index t (0 : Fin 3) ≤ 3 ∧ win0_10.index t (1 : Fin 3) ≤ 31 :=
  (by decide +kernel : ∀ t : Fin grid0.N, _)

/-- The batch of point t's block. -/
def blkB (t : Fin cfg0.N) : Fin 4 := ⟨win0_10.index t (0 : Fin 3), by have := (idx_bounds t).1; omega⟩
/-- The packed row of point t's block that block row r is. -/
def blkR (t : Fin cfg0.N) (r : Fin 4096) : Fin 131072 :=
  ⟨win0_10.index t (1 : Fin 3) * 4096 + r.val, by have := (idx_bounds t).2; have := r.isLt; omega⟩

/-- What point t writes back to the new state's array is its block of the packed new state. -/
theorem flushed10_eq (c : Dev nD) (t : Fin cfg0.N) :
    (dats m 0 c).flushed 10 t = ((cfg0.win 10).blk t).view.read (Elt Ideal) (S10 m c) := by
  show (cfg0.win 10).cut (grid0.coords t) ((dats m 0 c).after 10 t) = _
  rw [after0_10]
  unfold out0_10
  rw [View.canon_unit_zero hz3]
  simp only [View.ld_unit_zero (S := S1x4096x128) hz3, View.ld_unit_zero (S := S1x4096x6) hz3,
    View.ld_unit_zero (S := S128x128) hz2, View.ld_unit_zero (S := S6x128) hz2, View.ld_unit_zero (S := S1x128) hz2]
  obtain ⟨-, -, -, -, -, -, -, -, -, f102, -, -, -, -, -, -, -, -, -, -, -, -, -, -, -, -⟩ := idx_facts t
  funext y
  obtain ⟨u, r, l, rfl⟩ : ∃ (u : Fin 1) (r : Fin 4096) (l : Fin 128), y = ix3 u r l := ⟨y 0, y 1, y 2, eq_ix3 y⟩
  refine (pay2_apply (iblk m c 0 t) (iblk m c 1 t) (iblk m c 2 t) (iblk m c 3 t) (iblk m c 4 t) (iblk m c 5 t) (iblk m c 6 t) (iblk m c 7 t) u r l).trans ?_
  refine (hnewB_blk m c t r l (blkB t) (blkR t r) rfl rfl).trans ?_
  show S10 m c (ix3 (blkB t) (blkR t r) l) = S10 m c (((cfg0.win 10).blk t).view.emb (ix3 u r l))
  refine congrArg _ (funext fun a => Fin.ext ?_)
  match a with
  | ⟨0, _⟩ => show win0_10.index t (0 : Fin 3) = win0_10.index t (0 : Fin 3) * 1 + 1 * u.val; omega
  | ⟨1, _⟩ => show win0_10.index t (1 : Fin 3) * 4096 + r.val = win0_10.index t (1 : Fin 3) * 4096 + 1 * r.val; omega
  | ⟨2, _⟩ => show l.val = win0_10.index t (2 : Fin 3) * 128 + 1 * l.val; omega

/-- What point t writes back to the output's array is its block of the packed output. -/
theorem flushed11_eq (c : Dev nD) (t : Fin cfg0.N) :
    (dats m 0 c).flushed 11 t = ((cfg0.win 11).blk t).view.read (Elt Ideal) (S11 m c) := by
  show (cfg0.win 11).cut (grid0.coords t) ((dats m 0 c).after 11 t) = _
  rw [after0_11]
  unfold out0_11
  rw [View.canon_unit_zero hz3]
  simp only [View.ld_unit_zero (S := S1x4096x128) hz3, View.ld_unit_zero (S := S1x4096x6) hz3,
    View.ld_unit_zero (S := S128x128) hz2, View.ld_unit_zero (S := S6x128) hz2, View.ld_unit_zero (S := S1x128) hz2,
    View.ld_unit_zero (S := S128x6) hz2, View.ld_unit_zero (S := S1x6) hz2]
  obtain ⟨-, -, -, -, -, -, f110, f111, f112, -, -, -, -, -, -, -, -, -, -, -, -, -, -, -, -, -⟩ := idx_facts t
  funext y
  obtain ⟨u, r, q, rfl⟩ : ∃ (u : Fin 1) (r : Fin 4096) (q : Fin 6), y = ix3 u r q := ⟨y 0, y 1, y 2, eq_ix3 y⟩
  refine (pay3_apply (iblk m c 0 t) (iblk m c 1 t) (iblk m c 2 t) (iblk m c 3 t) (iblk m c 4 t) (iblk m c 5 t) (iblk m c 6 t) (iblk m c 7 t) (iblk m c 8 t) (iblk m c 9 t) u r q).trans ?_
  have he : ((cfg0.win 11).blk t).view.emb (ix3 u r q) = ix3 (blkB t) (blkR t r) q := by
    refine funext fun a => Fin.ext ?_
    match a with
    | ⟨0, _⟩ => show win0_11.index t (0 : Fin 3) * 1 + 1 * u.val = win0_10.index t (0 : Fin 3); omega
    | ⟨1, _⟩ => show win0_11.index t (1 : Fin 3) * 4096 + 1 * r.val = win0_10.index t (1 : Fin 3) * 4096 + r.val; omega
    | ⟨2, _⟩ => show win0_11.index t (2 : Fin 3) * 6 + 1 * q.val = q.val; omega
  refine Eq.trans ?_ (congrArg (S11 m c) he.symm)
  exact congrArg Ideal.tanh (congrArg₂ (· + ·)
    (Finset.sum_congr rfl fun k _ => congrArg₂ (· * ·) (hnewB_blk m c t r k (blkB t) (blkR t r) rfl rfl) (read8 m c t k q))
    (read9 m c t q))

/-- An index of the new state's array is in point t's block iff each coordinate is in the block's range. -/
theorem mem_blk10 (t : Fin cfg0.N) (i : S4x131072x128.Idx) :
    i ∈ ((cfg0.win 10).blk t).view.set ↔ ∀ a : Fin 3, win0_10.index t a * S1x4096x128.size a ≤ (i a).val ∧ (i a).val < win0_10.index t a * S1x4096x128.size a + S1x4096x128.size a := by
  show i ∈ ((View.whole main_v38_0).slice (win0_10.rect t)).set ↔ _
  rw [View.set_slice_whole, Rect.mem_set_unit]
  exact Iff.rfl

/-- The same for the output's array. -/
theorem mem_blk11 (t : Fin cfg0.N) (i : S4x131072x6.Idx) :
    i ∈ ((cfg0.win 11).blk t).view.set ↔ ∀ a : Fin 3, win0_11.index t a * S1x4096x6.size a ≤ (i a).val ∧ (i a).val < win0_11.index t a * S1x4096x6.size a + S1x4096x6.size a := by
  show i ∈ ((View.whole main_v38_1).slice (win0_11.rect t)).set ↔ _
  rw [View.set_slice_whole, Rect.mem_set_unit]
  exact Iff.rfl

/-- Every index of the new state's array is in some point's block. -/
theorem cover10 (i : S4x131072x128.Idx) : ∃ t : Fin cfg0.N, (cfg0.win 10).flush t = true ∧ i ∈ ((cfg0.win 10).blk t).view.set := by
  have hi0 : (i 0).val < 4 := (i 0).isLt
  have hi1 : (i 1).val < 131072 := (i 1).isLt
  have hi2 : (i 2).val < 128 := (i 2).isLt
  obtain ⟨t, ht⟩ := idx_onto ⟨(i 0).val, hi0⟩ ⟨(i 1).val / 4096, by omega⟩
  have q0 : win0_10.index t (0 : Fin 3) = (i 0).val := congrFun ht 0
  have q1 : win0_10.index t (1 : Fin 3) = (i 1).val / 4096 := congrFun ht 1
  have q2 : win0_10.index t (2 : Fin 3) = 0 := congrFun ht 2
  refine ⟨t, flush0_10 t, ?_⟩
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 4096 ≤ (i 1).val ∧ (i 1).val < win0_10.index t (1 : Fin 3) * 4096 + 4096; omega
  | ⟨2, _⟩ => show win0_10.index t (2 : Fin 3) * 128 ≤ (i 2).val ∧ (i 2).val < win0_10.index t (2 : Fin 3) * 128 + 128; omega

/-- Every index of the output's array is in some point's block. -/
theorem cover11 (i : S4x131072x6.Idx) : ∃ t : Fin cfg0.N, (cfg0.win 11).flush t = true ∧ i ∈ ((cfg0.win 11).blk t).view.set := by
  have hi0 : (i 0).val < 4 := (i 0).isLt
  have hi1 : (i 1).val < 131072 := (i 1).isLt
  have hi2 : (i 2).val < 6 := (i 2).isLt
  obtain ⟨t, ht⟩ := idx_onto ⟨(i 0).val, hi0⟩ ⟨(i 1).val / 4096, by omega⟩
  obtain ⟨-, -, -, -, -, -, f110, f111, f112, -, -, -, -, -, -, -, -, -, -, -, -, -, -, -, -, -⟩ := idx_facts t
  have q0 : win0_10.index t (0 : Fin 3) = (i 0).val := congrFun ht 0
  have q1 : win0_10.index t (1 : Fin 3) = (i 1).val / 4096 := congrFun ht 1
  refine ⟨t, flush0_11 t, ?_⟩
  rw [mem_blk11]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 4096 ≤ (i 1).val ∧ (i 1).val < win0_11.index t (1 : Fin 3) * 4096 + 4096; omega
  | ⟨2, _⟩ => show win0_11.index t (2 : Fin 3) * 6 ≤ (i 2).val ∧ (i 2).val < win0_11.index t (2 : Fin 3) * 6 + 6; omega

/-- The new state's array after the run. -/
theorem final10 (c : Dev nD) : (dats m 0 c).arrAt 10 cfg0.N = S10 m c :=
  (dats m 0 c).arrAt_eq_of_cover 10 (S10 m c) (fun t _ => flushed10_eq m c t) cover10

/-- The output's array after the run. -/
theorem final11 (c : Dev nD) : (dats m 0 c).arrAt 11 cfg0.N = S11 m c :=
  (dats m 0 c).arrAt_eq_of_cover 11 (S11 m c) (fun t _ => flushed11_eq m c t) cover11

/-- The first result: the reshape after the region reads the new state's array. -/
theorem tail39 (c : Dev nD) :
    Pipeline.afterTail₀ cfgs (dats m) 0 (V0 m) [hostOps1] c main_v39
      = shapeCast S4x262144x64 (S10 m c) shapeCasts_S4x131072x128_S4x262144x64 := by
  unfold Pipeline.afterTail₀
  show StableHlo.after hostOps1 _ (Proc.devRef .tc main_v39) = _
  after_results
  exact congrArg (fun x => shapeCast S4x262144x64 x shapeCasts_S4x131072x128_S4x262144x64)
    ((Pipeline.withArrays_arr spec0 launch0.win.arr_inj c _ _ 10).trans (final10 m c))

/-- The second result: the reshape after the region reads the output's array. -/
theorem tail40 (c : Dev nD) :
    Pipeline.afterTail₀ cfgs (dats m) 0 (V0 m) [hostOps1] c main_v40
      = shapeCast S4x262144x3 (S11 m c) shapeCasts_S4x131072x6_S4x262144x3 := by
  unfold Pipeline.afterTail₀
  show StableHlo.after hostOps1 _ (Proc.devRef .tc main_v40) = _
  after_results
  exact congrArg (fun x => shapeCast S4x262144x3 x shapeCasts_S4x131072x6_S4x262144x3)
    ((Pipeline.withArrays_arr spec0 launch0.win.arr_inj c _ _ 11).trans (final11 m c))

/-- The frame run re-posted: both results named, the arguments unchanged. -/
theorem run : θ_run defs (onTc (τ := τ) (main (F := Ideal))) ⟨m, fun _ => 0, ρ⟩ fun r => ∀ c : Dev nD,
      r.2.mem ((c : Thread nD τ).loc main_v39) = shapeCast S4x262144x64 (S10 m c) shapeCasts_S4x131072x128_S4x262144x64
      ∧ r.2.mem ((c : Thread nD τ).loc main_v40) = shapeCast S4x262144x3 (S11 m c) shapeCasts_S4x131072x6_S4x262144x3
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨
      ((h c).2 main_v39 (Pipeline.mem_restRefs_of main_v39 (by decide) (by decide))).trans (tail39 m c),
      ((h c).2 main_v40 (Pipeline.mem_restRefs_of main_v40 (by decide) (by decide))).trans (tail40 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.KRun

end
-- ==== Proof.LibChunkSum.lean ====
/-
  A finite sum taken chunk by chunk.

  The first `n * B` numbers are `n` consecutive chunks of `B` consecutive numbers, position `j` of chunk `c` being
  the number `c * B + j`; in a commutative monoid a sum over all of them is the sum over the chunks of each chunk's
  sum.  And a sum over nine terms is the nine added one after the other onto zero, from the left — the shape an
  accumulator that starts at zero and takes nine partial sums in turn ends with.
-/
import Mathlib.Algebra.BigOperators.Fin
import Mathlib.Logic.Equiv.Fin.Basic

namespace Cert.ChunkSum

variable {M : Type*} [AddCommMonoid M]

/-- The sum over `Fin (n * B)` is the sum over the `n` chunks of the sum over each chunk's `B` positions. -/
theorem sum_fin_chunks (n B : ℕ) (G : Fin (n * B) → M) :
    ∑ k : Fin (n * B), G k
      = ∑ c : Fin n, ∑ j : Fin B, G ⟨c.val * B + j.val, by
          have hc := c.isLt; have hj := j.isLt
          have h1 : c.val * B + j.val < (c.val + 1) * B := by rw [Nat.succ_mul]; omega
          exact lt_of_lt_of_le h1 (Nat.mul_le_mul_right B hc)⟩ := by
  rw [← Equiv.sum_comp finProdFinEquiv G, Fintype.sum_prod_type]
  refine Finset.sum_congr rfl fun c _ => Finset.sum_congr rfl fun j _ => congrArg G (Fin.ext ?_)
  show j.val + B * c.val = c.val * B + j.val
  rw [Nat.mul_comm, Nat.add_comm]

/-- Nine terms added one after the other onto zero, from the left, are their sum. -/
theorem sum_fin_nine (s : Fin 9 → M) :
    ∑ c : Fin 9, s c = ((((((((0 + s 0) + s 1) + s 2) + s 3) + s 4) + s 5) + s 6) + s 7) + s 8 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_castSucc, Fin.sum_univ_zero]
  rfl

end Cert.ChunkSum
-- ==== Proof.LibBlockDiag.lean ====
/-
  Block-diagonal weights for two rows packed side by side: the matrix read at coordinates, and the sum law.

  Two pieces laid side by side along the columns, one on top of the other along the rows, or two vectors end to end:
  an entry of the result is an entry of the piece its coordinate along the joined axis falls in, at that coordinate
  less the extent of the pieces before it.  From these, the block-diagonal matrix  [[Wᵀ, Z], [Z, Wᵀ]]  built from an
  O × I matrix W and a filler Z: for an input position k and an output position o, entries (k, o) and (I + k, O + o)
  are W (o, k), and entries (k, O + o) and (I + k, o) are the filler's.  And the row  [b, b]  of a vector b of B
  entries laid as a 1 × 2B matrix: entries (0, o) and (0, B + o) are b o.

  The sum law, on the extended reals.  A vector of 2·B entries is two chunks of B.  Against a column that is zero on
  one chunk and a given column W on the other, the sum of products over all 2·B positions is the sum over the B
  positions of the live chunk: the other chunk contributes x · 0 = 0 for every extended real x, infinite or not.
-/
import Idealize.ShloMosaic.Lib.ValueIdx
import Idealize.ShloMosaic.Lib.ValueLayout
import Idealize.ShloMosaic.Lib.Pipeline.Value
import Mathlib.Data.EReal.Operations
import proofs.«124539_j34935263985783_2_alg».proof.Proof.LibChunkSum

namespace Cert.Lib.BlockDiag

open Idealize.ShloMosaic Idealize.ShloMosaic.ValueIdx

variable {α : Type}

/-- Side by side along the columns, a column of the first piece. -/
theorem cols_left {A B1 B2 C : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, C]⟩ 1) (p : Fin A) (q : Fin C) (q₁ : Fin B1)
    (hq : q₁.val = q.val) :
    concatenate ⟨2, ![A, C]⟩ 1 [⟨⟨2, ![A, B1]⟩, x₁⟩, ⟨⟨2, ![A, B2]⟩, x₂⟩] h (ix2 p q) = x₁ (ix2 p q₁) := by
  refine concatenate_pair_apply_left (1 : Fin 2) x₁ x₂ h (ix2 p q) rfl (ix2 p q₁) fun b => ?_
  match b with
  | ⟨0, _⟩ => rfl
  | ⟨1, _⟩ => exact hq

/-- Side by side along the columns, a column of the second piece. -/
theorem cols_right {A B1 B2 C : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, C]⟩ 1) (p : Fin A) (q : Fin C) (q₂ : Fin B2)
    (hq : q₂.val + B1 = q.val) :
    concatenate ⟨2, ![A, C]⟩ 1 [⟨⟨2, ![A, B1]⟩, x₁⟩, ⟨⟨2, ![A, B2]⟩, x₂⟩] h (ix2 p q) = x₂ (ix2 p q₂) := by
  refine concatenate_pair_apply_right (1 : Fin 2) x₁ x₂ h (ix2 p q) rfl rfl (ix2 p q₂) (fun b hb => ?_) ?_
  · match b with
    | ⟨0, _⟩ => rfl
    | ⟨1, _⟩ => exact absurd rfl hb
  · exact hq

/-- One on top of the other along the rows, a row of the first piece. -/
theorem rows_top {A1 A2 B C : ℕ} (x₁ : (⟨2, ![A1, B]⟩ : Shape).Idx → α) (x₂ : (⟨2, ![A2, B]⟩ : Shape).Idx → α)
    (h : Shape.Concatenates [⟨2, ![A1, B]⟩, ⟨2, ![A2, B]⟩] ⟨2, ![C, B]⟩ 0) (p : Fin C) (q : Fin B) (p₁ : Fin A1)
    (hp : p₁.val = p.val) :
    concatenate ⟨2, ![C, B]⟩ 0 [⟨⟨2, ![A1, B]⟩, x₁⟩, ⟨⟨2, ![A2, B]⟩, x₂⟩] h (ix2 p q) = x₁ (ix2 p₁ q) := by
  refine concatenate_pair_apply_left (0 : Fin 2) x₁ x₂ h (ix2 p q) rfl (ix2 p₁ q) fun b => ?_
  match b with
  | ⟨0, _⟩ => exact hp
  | ⟨1, _⟩ => rfl

/-- One on top of the other along the rows, a row of the second piece. -/
theorem rows_bottom {A1 A2 B C : ℕ} (x₁ : (⟨2, ![A1, B]⟩ : Shape).Idx → α) (x₂ : (⟨2, ![A2, B]⟩ : Shape).Idx → α)
    (h : Shape.Concatenates [⟨2, ![A1, B]⟩, ⟨2, ![A2, B]⟩] ⟨2, ![C, B]⟩ 0) (p : Fin C) (q : Fin B) (p₂ : Fin A2)
    (hp : p₂.val + A1 = p.val) :
    concatenate ⟨2, ![C, B]⟩ 0 [⟨⟨2, ![A1, B]⟩, x₁⟩, ⟨⟨2, ![A2, B]⟩, x₂⟩] h (ix2 p q) = x₂ (ix2 p₂ q) := by
  refine concatenate_pair_apply_right (0 : Fin 2) x₁ x₂ h (ix2 p q) rfl rfl (ix2 p₂ q) (fun b hb => ?_) ?_
  · match b with
    | ⟨0, _⟩ => exact absurd rfl hb
    | ⟨1, _⟩ => rfl
  · exact hp

/-- Two vectors end to end, an entry of the first. -/
theorem vec_left {B1 B2 C : ℕ} (x₁ : (⟨1, ![B1]⟩ : Shape).Idx → α) (x₂ : (⟨1, ![B2]⟩ : Shape).Idx → α)
    (h : Shape.Concatenates [⟨1, ![B1]⟩, ⟨1, ![B2]⟩] ⟨1, ![C]⟩ 0) (q : Fin C) (q₁ : Fin B1) (hq : q₁.val = q.val) :
    concatenate ⟨1, ![C]⟩ 0 [⟨⟨1, ![B1]⟩, x₁⟩, ⟨⟨1, ![B2]⟩, x₂⟩] h (ix1 q) = x₁ (ix1 q₁) := by
  refine concatenate_pair_apply_left (0 : Fin 1) x₁ x₂ h (ix1 q) rfl (ix1 q₁) fun b => ?_
  match b with
  | ⟨0, _⟩ => exact hq

/-- Two vectors end to end, an entry of the second. -/
theorem vec_right {B1 B2 C : ℕ} (x₁ : (⟨1, ![B1]⟩ : Shape).Idx → α) (x₂ : (⟨1, ![B2]⟩ : Shape).Idx → α)
    (h : Shape.Concatenates [⟨1, ![B1]⟩, ⟨1, ![B2]⟩] ⟨1, ![C]⟩ 0) (q : Fin C) (q₂ : Fin B2) (hq : q₂.val + B1 = q.val) :
    concatenate ⟨1, ![C]⟩ 0 [⟨⟨1, ![B1]⟩, x₁⟩, ⟨⟨1, ![B2]⟩, x₂⟩] h (ix1 q) = x₂ (ix1 q₂) := by
  refine concatenate_pair_apply_right (0 : Fin 1) x₁ x₂ h (ix1 q) rfl rfl (ix1 q₂) (fun b hb => ?_) ?_
  · match b with
    | ⟨0, _⟩ => exact absurd rfl hb
  · exact hq

/-! ## The block-diagonal matrix of a transposed matrix -/

section BlockDiag

variable {I O I2 O2 : ℕ} (W : (⟨2, ![O, I]⟩ : Shape).Idx → α) (Z : (⟨2, ![I, O]⟩ : Shape).Idx → α)
  (hT : (⟨2, ![O, I]⟩ : Shape).Transposes [1, 0] ⟨2, ![I, O]⟩)
  (hc : Shape.Concatenates [⟨2, ![I, O]⟩, ⟨2, ![I, O]⟩] ⟨2, ![I, O2]⟩ 1)
  (hr : Shape.Concatenates [⟨2, ![I, O2]⟩, ⟨2, ![I, O2]⟩] ⟨2, ![I2, O2]⟩ 0)

/-- The matrix [[Wᵀ, Z], [Z, Wᵀ]]. -/
def blockDiag : (⟨2, ![I2, O2]⟩ : Shape).Idx → α :=
  concatenate ⟨2, ![I2, O2]⟩ 0
    [⟨⟨2, ![I, O2]⟩, concatenate ⟨2, ![I, O2]⟩ 1 [⟨⟨2, ![I, O]⟩, transpose ⟨2, ![I, O]⟩ [1, 0] W hT⟩, ⟨⟨2, ![I, O]⟩, Z⟩] hc⟩,
     ⟨⟨2, ![I, O2]⟩, concatenate ⟨2, ![I, O2]⟩ 1 [⟨⟨2, ![I, O]⟩, Z⟩, ⟨⟨2, ![I, O]⟩, transpose ⟨2, ![I, O]⟩ [1, 0] W hT⟩] hc⟩] hr

/-- Top left: the transposed matrix. -/
theorem blockDiag_tl (p : Fin I2) (q : Fin O2) (k : Fin I) (o : Fin O) (hp : k.val = p.val) (hq : o.val = q.val) :
    blockDiag W Z hT hc hr (ix2 p q) = W (ix2 o k) := by
  unfold blockDiag
  rw [rows_top _ _ hr p q k hp, cols_left _ _ hc k q o hq, transpose_ix2_apply]

/-- Top right: the filler. -/
theorem blockDiag_tr (p : Fin I2) (q : Fin O2) (k : Fin I) (o : Fin O) (hp : k.val = p.val) (hq : o.val + O = q.val) :
    blockDiag W Z hT hc hr (ix2 p q) = Z (ix2 k o) := by
  unfold blockDiag
  rw [rows_top _ _ hr p q k hp, cols_right _ _ hc k q o hq]

/-- Bottom left: the filler. -/
theorem blockDiag_bl (p : Fin I2) (q : Fin O2) (k : Fin I) (o : Fin O) (hp : k.val + I = p.val) (hq : o.val = q.val) :
    blockDiag W Z hT hc hr (ix2 p q) = Z (ix2 k o) := by
  unfold blockDiag
  rw [rows_bottom _ _ hr p q k hp, cols_left _ _ hc k q o hq]

/-- Bottom right: the transposed matrix. -/
theorem blockDiag_br (p : Fin I2) (q : Fin O2) (k : Fin I) (o : Fin O) (hp : k.val + I = p.val) (hq : o.val + O = q.val) :
    blockDiag W Z hT hc hr (ix2 p q) = W (ix2 o k) := by
  unfold blockDiag
  rw [rows_bottom _ _ hr p q k hp, cols_right _ _ hc k q o hq, transpose_ix2_apply]

end BlockDiag

/-! ## A vector twice, as one row -/

section TwiceRow

variable {B C : ℕ} (b : (⟨1, ![B]⟩ : Shape).Idx → α)
  (hc : Shape.Concatenates [⟨1, ![B]⟩, ⟨1, ![B]⟩] ⟨1, ![C]⟩ 0) (hs : (⟨1, ![C]⟩ : Shape).ShapeCasts ⟨2, ![1, C]⟩)

/-- The row [b, b]. -/
def twiceRow : (⟨2, ![1, C]⟩ : Shape).Idx → α :=
  shapeCast ⟨2, ![1, C]⟩ (concatenate ⟨1, ![C]⟩ 0 [⟨⟨1, ![B]⟩, b⟩, ⟨⟨1, ![B]⟩, b⟩] hc) hs

theorem twiceRow_left (u : Fin 1) (q : Fin C) (o : Fin B) (hq : o.val = q.val) : twiceRow b hc hs (ix2 u q) = b (ix1 o) := by
  unfold twiceRow
  rw [shapeCast_a_1a_apply, vec_left _ _ hc q o hq]

theorem twiceRow_right (u : Fin 1) (q : Fin C) (o : Fin B) (hq : o.val + B = q.val) : twiceRow b hc hs (ix2 u q) = b (ix1 o) := by
  unfold twiceRow
  rw [shapeCast_a_1a_apply, vec_right _ _ hc q o hq]

end TwiceRow

/-! ## The sum law -/

/-- A sum over two chunks of B positions is the first chunk's sum plus the second chunk's. -/
theorem sum_two_chunks {B : ℕ} (f : Fin (2 * B) → EReal) :
    ∑ i, f i = (∑ k : Fin B, f ⟨k.val, by have := k.isLt; omega⟩) + ∑ k : Fin B, f ⟨B + k.val, by have := k.isLt; omega⟩ := by
  rw [Cert.ChunkSum.sum_fin_chunks 2 B f, Fin.sum_univ_two]
  congr 1
  · exact Finset.sum_congr rfl fun k _ => congrArg f (Fin.ext (by show 0 * B + k.val = k.val; omega))
  · exact Finset.sum_congr rfl fun k _ => congrArg f (Fin.ext (by show 1 * B + k.val = B + k.val; omega))

/-- Two packed rows against a block-diagonal column: the column M is W on chunk s and zero on the other chunk, so the
    sum over all 2·B positions is the sum over chunk s against W. -/
theorem sum_blockdiag {B : ℕ} (x M : Fin (2 * B) → EReal) (W : Fin B → EReal) (s : Fin 2)
    (h0 : ∀ k : Fin B, M ⟨k.val, by have := k.isLt; omega⟩ = if s.val = 0 then W k else 0)
    (h1 : ∀ k : Fin B, M ⟨B + k.val, by have := k.isLt; omega⟩ = if s.val = 1 then W k else 0) :
    ∑ i, x i * M i = ∑ k : Fin B, x ⟨s.val * B + k.val, by
      have := k.isLt; have := s.isLt
      have h : s.val * B + k.val < (s.val + 1) * B := by rw [Nat.succ_mul]; omega
      exact lt_of_lt_of_le h (by rw [show 2 * B = (1 + 1) * B by ring]; exact Nat.mul_le_mul_right B (by omega))⟩ * W k := by
  rw [sum_two_chunks]
  match s with
  | ⟨0, _⟩ =>
    have e1 : ∀ k : Fin B, x ⟨B + k.val, by have := k.isLt; omega⟩ * M ⟨B + k.val, by have := k.isLt; omega⟩ = 0 := fun k => by
      rw [h1 k, if_neg (show ¬ (0 : ℕ) = 1 by decide), mul_zero]
    rw [Finset.sum_congr rfl fun k _ => e1 k, Finset.sum_const_zero, add_zero]
    refine Finset.sum_congr rfl fun k _ => ?_
    rw [h0 k, if_pos rfl]
    exact congrArg (fun i => x i * W k) (Fin.ext (by show k.val = 0 * B + k.val; omega))
  | ⟨1, _⟩ =>
    have e0 : ∀ k : Fin B, x ⟨k.val, by have := k.isLt; omega⟩ * M ⟨k.val, by have := k.isLt; omega⟩ = 0 := fun k => by
      rw [h0 k, if_neg (show ¬ (1 : ℕ) = 0 by decide), mul_zero]
    rw [Finset.sum_congr rfl fun k _ => e0 k, Finset.sum_const_zero, zero_add]
    refine Finset.sum_congr rfl fun k _ => ?_
    rw [h1 k, if_pos rfl]
    exact congrArg (fun i => x i * W k) (Fin.ext (by show B + k.val = 1 * B + k.val; omega))

end Cert.Lib.BlockDiag
-- ==== Proof.KernelEntry.lean ====
/-
  What the region finds in the ten arrays it stages: the host's packing of the arguments.

  The state and the input are the arguments with two consecutive rows read as one.  Each weight matrix is the
  block-diagonal matrix of its transpose with zero filler, each bias the vector twice as one row; a change of float
  format is the identity at the ideal values.
-/
import proofs.«124539_j34935263985783_2_alg».proof.Proof.Gen.KernelIdeal.Frame
import proofs.«124539_j34935263985783_2_alg».proof.Proof.LibBlockDiag
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo Cert.Lib.BlockDiag

variable (m : (ℓ : Loc nD τ sig) → Buf (Elt Ideal) ℓ) (c : Dev nD)

/-- The zero filler of a given shape. -/
abbrev filler (S : Shape) (h : S_.BroadcastsInDim S (![] : Fin 0 → Fin S.rank)) : S.Idx → EReal :=
  broadcastInDim S ![] h (constant (F := Ideal) S_ .f32 0x00000000#32)

theorem filler_apply (S : Shape) (h : S_.BroadcastsInDim S (![] : Fin 0 → Fin S.rank)) (i : S.Idx) :
    filler S h i = Ideal.ofBits .f32 0x00000000#32 := by
  unfold filler
  exact broadcastInDim_apply _ h _ i (fun a => a.elim0) (fun a => a.elim0)

theorem V_v0 : (V m c main_v0 : S4x131072x128.Idx → EReal)
    = shapeCast S4x131072x128 (m ((c : Thread nD τ).loc main_arg0)) shapeCasts_S4x262144x64_S4x131072x128 := by
  show StableHlo.after hostOps0 (fun b => m (c, b)) (Proc.devRef .tc main_v0) = _
  after_results_simp
  rfl

theorem V_v1 : (V m c main_v1 : S4x131072x6.Idx → EReal)
    = shapeCast S4x131072x6 (m ((c : Thread nD τ).loc main_arg1)) shapeCasts_S4x262144x3_S4x131072x6 := by
  show StableHlo.after hostOps0 (fun b => m (c, b)) (Proc.devRef .tc main_v1) = _
  after_results_simp
  rfl

theorem V_v7 : (V m c main_v7 : S128x128.Idx → EReal)
    = blockDiag (m ((c : Thread nD τ).loc main_arg5)) (filler S64x64 bcast_S_S64x64) transposes_S64x64_S64x64_1_0
        concatenates_S64x64_S64x64_S64x128_d1 concatenates_S64x128_S64x128_S128x128_d0 := by
  show StableHlo.after hostOps0 (fun b => m (c, b)) (Proc.devRef .tc main_v7) = _
  after_results_simp
  rfl

theorem V_v13 : (V m c main_v13 : S6x128.Idx → EReal)
    = blockDiag (m ((c : Thread nD τ).loc main_arg6)) (filler S3x64 bcast_S_S3x64) transposes_S64x3_S3x64_1_0
        concatenates_S3x64_S3x64_S3x128_d1 concatenates_S3x128_S3x128_S6x128_d0 := by
  show StableHlo.after hostOps0 (fun b => m (c, b)) (Proc.devRef .tc main_v13) = _
  after_results_simp
  rfl

theorem V_v33 : (V m c main_v33 : S1x128.Idx → EReal)
    = twiceRow (m ((c : Thread nD τ).loc main_arg7)) concatenates_S64_S64_S128_d0 shapeCasts_S128_S1x128 := by
  show StableHlo.after hostOps0 (fun b => m (c, b)) (Proc.devRef .tc main_v33) = _
  after_results_simp
  rfl

theorem V_v19 : (V m c main_v19 : S128x128.Idx → EReal)
    = blockDiag (m ((c : Thread nD τ).loc main_arg2)) (filler S64x64 bcast_S_S64x64) transposes_S64x64_S64x64_1_0
        concatenates_S64x64_S64x64_S64x128_d1 concatenates_S64x128_S64x128_S128x128_d0 := by
  show StableHlo.after hostOps0 (fun b => m (c, b)) (Proc.devRef .tc main_v19) = _
  after_results_simp
  rfl

theorem V_v25 : (V m c main_v25 : S6x128.Idx → EReal)
    = blockDiag (m ((c : Thread nD τ).loc main_arg3)) (filler S3x64 bcast_S_S3x64) transposes_S64x3_S3x64_1_0
        concatenates_S3x64_S3x64_S3x128_d1 concatenates_S3x128_S3x128_S6x128_d0 := by
  show StableHlo.after hostOps0 (fun b => m (c, b)) (Proc.devRef .tc main_v25) = _
  after_results_simp
  rfl

theorem V_v35 : (V m c main_v35 : S1x128.Idx → EReal)
    = twiceRow (m ((c : Thread nD τ).loc main_arg4)) concatenates_S64_S64_S128_d0 shapeCasts_S128_S1x128 := by
  show StableHlo.after hostOps0 (fun b => m (c, b)) (Proc.devRef .tc main_v35) = _
  after_results_simp
  rfl

theorem V_v31 : (V m c main_v31 : S128x6.Idx → EReal)
    = blockDiag (m ((c : Thread nD τ).loc main_arg8)) (filler S64x3 bcast_S_S64x3) transposes_S3x64_S64x3_1_0
        concatenates_S64x3_S64x3_S64x6_d1 concatenates_S64x6_S64x6_S128x6_d0 := by
  show StableHlo.after hostOps0 (fun b => m (c, b)) (Proc.devRef .tc main_v31) = _
  after_results_simp
  rfl

theorem V_v37 : (V m c main_v37 : S1x6.Idx → EReal)
    = twiceRow (m ((c : Thread nD τ).loc main_arg9)) concatenates_S3_S3_S6_d0 shapeCasts_S6_S1x6 := by
  show StableHlo.after hostOps0 (fun b => m (c, b)) (Proc.devRef .tc main_v37) = _
  after_results_simp
  rfl

end Cert.KernelIdeal.Entry

end
-- ==== Proof.RefValue.lean ====
/-
  The reference's two results read entry by entry at the ideal values.

  For batch a, row n and unit j the score is  Σ_k h(a, n, k) · W(j, k)  +  Σ_k u(a, n, k) · U(j, k)  +  b(j):
  each einsum is a sum over its one contracted axis, and a bias vector broadcast over batch and rows is read at its
  unit.  The new state at (a, n, j) is the cell update of h(a, n, j) with the time-constant score (weights W_tau,
  U_tau, b_tau) and the gate score (weights W_h, U_h, b_h); the output at (a, n, o) is tanh of the new state's row
  against row o of W_out, plus b_out(o).
-/
import proofs.«124539_j34935263985783_2_alg».proof.Proof.Gen.ReferenceIdeal.Read
import proofs.«124539_j34935263985783_2_alg».proof.Proof.Cell
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Cell

/-- The score of row (a, n) at unit j. -/
def scoreR (h : S4x262144x64.Idx → EReal) (u : S4x262144x3.Idx → EReal) (W : S64x64.Idx → EReal) (U : S64x3.Idx → EReal)
    (b : S64.Idx → EReal) (a : Fin 4) (n : Fin 262144) (j : Fin 64) : EReal :=
  (∑ k : Fin 64, h (ix3 a n k) * W (ix2 j k) + ∑ k : Fin 3, u (ix3 a n k) * U (ix2 j k)) + b (ix1 j)

/-- The new state of row (a, n) at unit j. -/
def hnewR (h : S4x262144x64.Idx → EReal) (u : S4x262144x3.Idx → EReal) (Wh : S64x64.Idx → EReal) (Uh : S64x3.Idx → EReal)
    (bh : S64.Idx → EReal) (Wt : S64x64.Idx → EReal) (Ut : S64x3.Idx → EReal) (bt : S64.Idx → EReal)
    (a : Fin 4) (n : Fin 262144) (j : Fin 64) : EReal :=
  cellR (h (ix3 a n j)) (scoreR h u Wt Ut bt a n j) (scoreR h u Wh Uh bh a n j)

/-- The output of row (a, n) at channel o. -/
def outR (h : S4x262144x64.Idx → EReal) (u : S4x262144x3.Idx → EReal) (Wh : S64x64.Idx → EReal) (Uh : S64x3.Idx → EReal)
    (bh : S64.Idx → EReal) (Wt : S64x64.Idx → EReal) (Ut : S64x3.Idx → EReal) (bt : S64.Idx → EReal)
    (Wo : S3x64.Idx → EReal) (bo : S3.Idx → EReal) (a : Fin 4) (n : Fin 262144) (o : Fin 3) : EReal :=
  Ideal.tanh ((∑ k : Fin 64, hnewR h u Wh Uh bh Wt Ut bt a n k * Wo (ix2 o k)) + bo (ix1 o))

theorem lidx64 (a : Fin 4) (n : Fin 262144) (j : Fin 64) (k : Fin 64) : lidx_main_v0 (ix3 a n j) k = ix3 a n k :=
  funext fun d => Fin.ext (by match d with | ⟨0, _⟩ => rfl | ⟨1, _⟩ => rfl | ⟨2, _⟩ => rfl)
theorem ridx64 (a : Fin 4) (n : Fin 262144) (j : Fin 64) (k : Fin 64) : ridx_main_v0 (ix3 a n j) k = ix2 j k :=
  funext fun d => Fin.ext (by match d with | ⟨0, _⟩ => rfl | ⟨1, _⟩ => rfl)
theorem lidx3 (a : Fin 4) (n : Fin 262144) (j : Fin 64) (k : Fin 3) : lidx_main_v1 (ix3 a n j) k = ix3 a n k :=
  funext fun d => Fin.ext (by match d with | ⟨0, _⟩ => rfl | ⟨1, _⟩ => rfl | ⟨2, _⟩ => rfl)
theorem ridx3 (a : Fin 4) (n : Fin 262144) (j : Fin 64) (k : Fin 3) : ridx_main_v1 (ix3 a n j) k = ix2 j k :=
  funext fun d => Fin.ext (by match d with | ⟨0, _⟩ => rfl | ⟨1, _⟩ => rfl)
theorem lidx64' (a : Fin 4) (n : Fin 262144) (j : Fin 64) (k : Fin 64) : lidx_main_v11 (ix3 a n j) k = ix3 a n k :=
  funext fun d => Fin.ext (by match d with | ⟨0, _⟩ => rfl | ⟨1, _⟩ => rfl | ⟨2, _⟩ => rfl)
theorem ridx64' (a : Fin 4) (n : Fin 262144) (j : Fin 64) (k : Fin 64) : ridx_main_v11 (ix3 a n j) k = ix2 j k :=
  funext fun d => Fin.ext (by match d with | ⟨0, _⟩ => rfl | ⟨1, _⟩ => rfl)
theorem lidx3' (a : Fin 4) (n : Fin 262144) (j : Fin 64) (k : Fin 3) : lidx_main_v12 (ix3 a n j) k = ix3 a n k :=
  funext fun d => Fin.ext (by match d with | ⟨0, _⟩ => rfl | ⟨1, _⟩ => rfl | ⟨2, _⟩ => rfl)
theorem ridx3' (a : Fin 4) (n : Fin 262144) (j : Fin 64) (k : Fin 3) : ridx_main_v12 (ix3 a n j) k = ix2 j k :=
  funext fun d => Fin.ext (by match d with | ⟨0, _⟩ => rfl | ⟨1, _⟩ => rfl)
theorem bidx_t (a : Fin 4) (n : Fin 262144) (j : Fin 64) : idx_main_v3 (idx_main_v4 (ix3 a n j)) = ix1 j :=
  funext fun d => Fin.ext (by match d with | ⟨0, _⟩ => rfl)
theorem bidx_h (a : Fin 4) (n : Fin 262144) (j : Fin 64) : idx_main_v14 (idx_main_v15 (ix3 a n j)) = ix1 j :=
  funext fun d => Fin.ext (by match d with | ⟨0, _⟩ => rfl)
theorem lidxo (a : Fin 4) (n : Fin 262144) (o : Fin 3) (k : Fin 64) : lidx_main_v29 (ix3 a n o) k = ix3 a n k :=
  funext fun d => Fin.ext (by match d with | ⟨0, _⟩ => rfl | ⟨1, _⟩ => rfl | ⟨2, _⟩ => rfl)
theorem ridxo (a : Fin 4) (n : Fin 262144) (o : Fin 3) (k : Fin 64) : ridx_main_v29 (ix3 a n o) k = ix2 o k :=
  funext fun d => Fin.ext (by match d with | ⟨0, _⟩ => rfl | ⟨1, _⟩ => rfl)
theorem bidx_o (a : Fin 4) (n : Fin 262144) (o : Fin 3) : idx_main_v30 (idx_main_v31 (ix3 a n o)) = ix1 o :=
  funext fun d => Fin.ext (by match d with | ⟨0, _⟩ => rfl)

/-- The first result at (a, n, j) is the new state there. -/
theorem v28_apply (x0 : S4x262144x64.Idx → EReal) (x1 : S4x262144x3.Idx → EReal) (x2 : S64x64.Idx → EReal)
    (x3 : S64x3.Idx → EReal) (x4 : S64.Idx → EReal) (x5 : S64x64.Idx → EReal) (x6 : S64x3.Idx → EReal) (x7 : S64.Idx → EReal)
    (a : Fin 4) (n : Fin 262144) (j : Fin 64) :
    val_main_v28 (F := Ideal) x0 x1 x2 x3 x4 x5 x6 x7 (ix3 a n j) = hnewR x0 x1 x2 x3 x4 x5 x6 x7 a n j := by
  simp only [val_main_v28_apply, val_main_v27_apply, val_main_v26_apply, val_main_cst_3_apply, val_main_v25_apply, val_main_v24_apply, val_main_v23_apply, val_main_v22_apply, val_main_v21_apply, val_main_cst_2_apply, val_main_v20_apply, val_main_v19_apply, val_main_cst_1_apply, val_main_v18_apply, val_main_v17_apply, val_main_v16_apply, val_main_v15_apply, val_main_v14_apply, val_main_v13_apply, val_main_v12_apply, val_main_v11_apply, val_main_v10_apply, val_main_v9_apply, val_main_cst_0_apply, val_main_v8_apply, val_main_v7_apply, val_main_cst_apply, val_main_v6_apply, val_main_call0_v11_apply, val_main_call0_v10_apply, val_main_call0_v9_apply, val_main_call0_v8_apply, val_main_call0_v7_apply, val_main_call0_v6_apply, val_main_call0_v5_apply, val_main_call0_v4_apply, val_main_call0_v3_apply, val_main_call0_v2_apply, val_main_call0_v1_apply, val_main_call0_v0_apply, val_main_call0_cst_apply, val_main_v5_apply, val_main_v4_apply, val_main_v3_apply, val_main_v2_apply, val_main_v1_apply, val_main_v0_apply,
    lidx64, ridx64, lidx3, ridx3, lidx64', ridx64', lidx3', ridx3', bidx_t, bidx_h]
  rfl

/-- The second result at (a, n, o) is the output there. -/
theorem v33_apply (x0 : S4x262144x64.Idx → EReal) (x1 : S4x262144x3.Idx → EReal) (x2 : S64x64.Idx → EReal)
    (x3 : S64x3.Idx → EReal) (x4 : S64.Idx → EReal) (x5 : S64x64.Idx → EReal) (x6 : S64x3.Idx → EReal) (x7 : S64.Idx → EReal)
    (x8 : S3x64.Idx → EReal) (x9 : S3.Idx → EReal) (a : Fin 4) (n : Fin 262144) (o : Fin 3) :
    val_main_v33 (F := Ideal) x0 x1 x2 x3 x4 x5 x6 x7 x8 x9 (ix3 a n o) = outR x0 x1 x2 x3 x4 x5 x6 x7 x8 x9 a n o := by
  simp only [val_main_v33_apply, val_main_v32_apply, val_main_v31_apply, val_main_v30_apply, val_main_v29_apply, lidxo, ridxo, bidx_o, v28_apply]
  rfl

end Cert.ReferenceIdeal.RefValue

end
-- ==== Proof.Packing.lean ====
/-
  Two consecutive rows read as one row of twice the width, and a packed row taken apart, at coordinates.

  The host's reshape keeps the row-major position of every entry.  Reading rows of D entries in pairs puts entry d
  of row 2r + s at lane s·D + d of packed row r; taking packed rows apart is the same correspondence read the other
  way: row n is half n % 2 of packed row n / 2.
-/
import Idealize.ShloMosaic.Lib.ValueIdx
import Idealize.ShloMosaic.Lib.Pipeline.Value

namespace Cert.Packing

open Idealize.ShloMosaic Idealize.ShloMosaic.ValueIdx

variable {α : Type}

/-- Rows of 64 packed in pairs: entry (a, r, l) of the packed array is entry (a, 2r + l / 64, l % 64). -/
theorem pack64 (x : (⟨3, ![4, 262144, 64]⟩ : Shape).Idx → α)
    (h : (⟨3, ![4, 262144, 64]⟩ : Shape).ShapeCasts ⟨3, ![4, 131072, 128]⟩) (a : Fin 4) (r : Fin 131072) (l : Fin 128)
    (n : Fin 262144) (d : Fin 64) (hn : n.val = 2 * r.val + l.val / 64) (hd : d.val = l.val % 64) :
    shapeCast ⟨3, ![4, 131072, 128]⟩ x h (ix3 a r l) = x (ix3 a n d) :=
  shapeCast_apply x h _ _ (by
    rw [Shape.rowMajor_val_three, Shape.rowMajor_val_three]
    show (a.val * 262144 + n.val) * 64 + d.val = (a.val * 131072 + r.val) * 128 + l.val
    omega)

/-- Rows of 3 packed in pairs: entry (a, r, l) of the packed array is entry (a, 2r + l / 3, l % 3). -/
theorem pack3 (x : (⟨3, ![4, 262144, 3]⟩ : Shape).Idx → α)
    (h : (⟨3, ![4, 262144, 3]⟩ : Shape).ShapeCasts ⟨3, ![4, 131072, 6]⟩) (a : Fin 4) (r : Fin 131072) (l : Fin 6)
    (n : Fin 262144) (d : Fin 3) (hn : n.val = 2 * r.val + l.val / 3) (hd : d.val = l.val % 3) :
    shapeCast ⟨3, ![4, 131072, 6]⟩ x h (ix3 a r l) = x (ix3 a n d) :=
  shapeCast_apply x h _ _ (by
    rw [Shape.rowMajor_val_three, Shape.rowMajor_val_three]
    show (a.val * 262144 + n.val) * 3 + d.val = (a.val * 131072 + r.val) * 6 + l.val
    omega)

/-- Packed rows of 128 taken apart: entry (a, n, d) is entry (a, n / 2, 64 · (n % 2) + d) of the packed array. -/
theorem unpack64 (x : (⟨3, ![4, 131072, 128]⟩ : Shape).Idx → α)
    (h : (⟨3, ![4, 131072, 128]⟩ : Shape).ShapeCasts ⟨3, ![4, 262144, 64]⟩) (a : Fin 4) (n : Fin 262144) (d : Fin 64)
    (r : Fin 131072) (l : Fin 128) (hr : r.val = n.val / 2) (hl : l.val = 64 * (n.val % 2) + d.val) :
    shapeCast ⟨3, ![4, 262144, 64]⟩ x h (ix3 a n d) = x (ix3 a r l) :=
  shapeCast_apply x h _ _ (by
    rw [Shape.rowMajor_val_three, Shape.rowMajor_val_three]
    show (a.val * 131072 + r.val) * 128 + l.val = (a.val * 262144 + n.val) * 64 + d.val
    omega)

/-- Packed rows of 6 taken apart: entry (a, n, d) is entry (a, n / 2, 3 · (n % 2) + d) of the packed array. -/
theorem unpack3 (x : (⟨3, ![4, 131072, 6]⟩ : Shape).Idx → α)
    (h : (⟨3, ![4, 131072, 6]⟩ : Shape).ShapeCasts ⟨3, ![4, 262144, 3]⟩) (a : Fin 4) (n : Fin 262144) (d : Fin 3)
    (r : Fin 131072) (l : Fin 6) (hr : r.val = n.val / 2) (hl : l.val = 3 * (n.val % 2) + d.val) :
    shapeCast ⟨3, ![4, 262144, 3]⟩ x h (ix3 a n d) = x (ix3 a r l) :=
  shapeCast_apply x h _ _ (by
    rw [Shape.rowMajor_val_three, Shape.rowMajor_val_three]
    show (a.val * 131072 + r.val) * 6 + l.val = (a.val * 262144 + n.val) * 3 + d.val
    omega)

end Cert.Packing
-- ==== Proof.Bridge.lean ====
/-
  Two rows packed side by side against block-diagonal weights are the two rows, each against the plain weights.

  Original row n of batch a sits in packed row r = n / 2, in half s = n % 2: its 64 state entries at lanes
  64·s … 64·s + 63 and its 3 input entries at lanes 3·s … 3·s + 2.  A block-diagonal weight matrix sends half s of a
  packed row to half s of the result, so the score of packed row (a, r) at lane 64·s + j is the score of row (a, n)
  at unit j: the sum over the 128 (or 6) packed positions loses the other half, whose weights are zero, and the bias
  row repeats the bias.  Hence the packed new state at (a, r, 64·s + j) is the new state of row (a, n) at unit j, and
  the packed output at (a, r, 3·s + o) is the output of row (a, n) at channel o.  The two spellings of the cell are
  one function.  Reading the packed arrays with each packed row taken apart gives the reference's results.
-/
import proofs.«124539_j34935263985783_2_alg».proof.Proof.KernelValue
import proofs.«124539_j34935263985783_2_alg».proof.Proof.RefValue
import proofs.«124539_j34935263985783_2_alg».proof.Proof.Packing
import proofs.«124539_j34935263985783_2_alg».proof.Proof.LibBlockDiag
import proofs.«124539_j34935263985783_2_alg».proof.Proof.Cell

noncomputable section

namespace Cert.Bridge

open Cert.KernelIdeal Idealize.ShloMosaic Idealize.ShloMosaic.ValueIdx Cert.Cell Cert.Packing Cert.Lib.BlockDiag
open Cert.KernelIdeal.KVal Cert.ReferenceIdeal.RefValue

variable (h : S4x262144x64.Idx → EReal) (u : S4x262144x3.Idx → EReal)
  (Wh : S64x64.Idx → EReal) (Uh : S64x3.Idx → EReal) (bh : S64.Idx → EReal)
  (Wt : S64x64.Idx → EReal) (Ut : S64x3.Idx → EReal) (bt : S64.Idx → EReal)
  (Wo : S3x64.Idx → EReal) (bo : S3.Idx → EReal)
  (hp64 : S4x262144x64.ShapeCasts S4x131072x128) (hp3 : S4x262144x3.ShapeCasts S4x131072x6)
  (hu64 : S4x131072x128.ShapeCasts S4x262144x64) (hu3 : S4x131072x6.ShapeCasts S4x262144x3)
  (Z64 : S64x64.Idx → EReal) (hZ64 : ∀ i, Z64 i = 0) (Z3 : S3x64.Idx → EReal) (hZ3 : ∀ i, Z3 i = 0)
  (Zo : S64x3.Idx → EReal) (hZo : ∀ i, Zo i = 0)
  (hT64 : S64x64.Transposes [1, 0] S64x64) (hc64 : Shape.Concatenates [S64x64, S64x64] S64x128 1)
  (hr64 : Shape.Concatenates [S64x128, S64x128] S128x128 0)
  (hT3 : S64x3.Transposes [1, 0] S3x64) (hc3 : Shape.Concatenates [S3x64, S3x64] S3x128 1)
  (hr3 : Shape.Concatenates [S3x128, S3x128] S6x128 0)
  (hTo : S3x64.Transposes [1, 0] S64x3) (hco : Shape.Concatenates [S64x3, S64x3] S64x6 1)
  (hro : Shape.Concatenates [S64x6, S64x6] S128x6 0)
  (hcb : Shape.Concatenates [S64, S64] S128 0) (hsb : S128.ShapeCasts S1x128)
  (hcbo : Shape.Concatenates [S3, S3] S6 0) (hsbo : S6.ShapeCasts S1x6)

include hZ64 hZ3 in
/-- The score of packed row (a, n / 2) at lane 64 · (n % 2) + j is the score of row (a, n) at unit j. -/
theorem score_core (W : S64x64.Idx → EReal) (U : S64x3.Idx → EReal) (b : S64.Idx → EReal)
    (a : Fin 4) (n : Fin 262144) (j : Fin 64) (r : Fin 131072) (l : Fin 128)
    (hr : r.val = n.val / 2) (hl : l.val = 64 * (n.val % 2) + j.val) :
    scoreP (shapeCast S4x131072x128 h hp64) (shapeCast S4x131072x6 u hp3) (blockDiag W Z64 hT64 hc64 hr64)
        (blockDiag U Z3 hT3 hc3 hr3) (twiceRow b hcb hsb) a r l
      = scoreR h u W U b a n j := by
  have hn2 : n.val % 2 < 2 := Nat.mod_lt _ (by decide)
  unfold scoreP scoreR
  refine congrArg₂ (· + ·) (congrArg₂ (· + ·) ?_ ?_) ?_
  · -- the state against the 128 × 128 block-diagonal matrix
    refine (sum_blockdiag (B := 64) (fun k => shapeCast S4x131072x128 h hp64 (ix3 a r k))
      (fun k => blockDiag W Z64 hT64 hc64 hr64 (ix2 k l)) (fun k => W (ix2 j k)) ⟨n.val % 2, hn2⟩ (fun k => ?_) (fun k => ?_)).trans ?_
    · by_cases hs : n.val % 2 = 0
      · rw [if_pos hs]
        exact blockDiag_tl W Z64 hT64 hc64 hr64 _ l k j rfl (by omega)
      · rw [if_neg hs]
        exact (blockDiag_tr W Z64 hT64 hc64 hr64 _ l k j rfl (by omega)).trans (hZ64 _)
    · by_cases hs : n.val % 2 = 1
      · rw [if_pos hs]
        exact blockDiag_br W Z64 hT64 hc64 hr64 _ l k j (by show k.val + 64 = 64 + k.val; omega) (by omega)
      · rw [if_neg hs]
        exact (blockDiag_bl W Z64 hT64 hc64 hr64 _ l k j (by show k.val + 64 = 64 + k.val; omega) (by omega)).trans (hZ64 _)
    · refine Finset.sum_congr rfl fun k _ => congrArg (· * W (ix2 j k)) ?_
      exact pack64 h hp64 a r _ n k (by show n.val = 2 * r.val + (n.val % 2 * 64 + k.val) / 64; omega)
        (by show k.val = (n.val % 2 * 64 + k.val) % 64; omega)
  · -- the input against the 6 × 128 block-diagonal matrix
    refine (sum_blockdiag (B := 3) (fun k => shapeCast S4x131072x6 u hp3 (ix3 a r k))
      (fun k => blockDiag U Z3 hT3 hc3 hr3 (ix2 k l)) (fun k => U (ix2 j k)) ⟨n.val % 2, hn2⟩ (fun k => ?_) (fun k => ?_)).trans ?_
    · by_cases hs : n.val % 2 = 0
      · rw [if_pos hs]
        exact blockDiag_tl U Z3 hT3 hc3 hr3 _ l k j rfl (by omega)
      · rw [if_neg hs]
        exact (blockDiag_tr U Z3 hT3 hc3 hr3 _ l k j rfl (by omega)).trans (hZ3 _)
    · by_cases hs : n.val % 2 = 1
      · rw [if_pos hs]
        exact blockDiag_br U Z3 hT3 hc3 hr3 _ l k j (by show k.val + 3 = 3 + k.val; omega) (by omega)
      · rw [if_neg hs]
        exact (blockDiag_bl U Z3 hT3 hc3 hr3 _ l k j (by show k.val + 3 = 3 + k.val; omega) (by omega)).trans (hZ3 _)
    · refine Finset.sum_congr rfl fun k _ => congrArg (· * U (ix2 j k)) ?_
      exact pack3 u hp3 a r _ n k (by show n.val = 2 * r.val + (n.val % 2 * 3 + k.val) / 3; omega)
        (by show k.val = (n.val % 2 * 3 + k.val) % 3; omega)
  · -- the bias row
    by_cases hs : n.val % 2 = 0
    · exact twiceRow_left b hcb hsb 0 l j (by omega)
    · exact twiceRow_right b hcb hsb 0 l j (by omega)

/-- The packed new state, from the arguments. -/
abbrev pState : S4x131072x128.Idx → EReal :=
  P10 (shapeCast S4x131072x128 h hp64) (shapeCast S4x131072x6 u hp3) (blockDiag Wt Z64 hT64 hc64 hr64)
    (blockDiag Ut Z3 hT3 hc3 hr3) (twiceRow bt hcb hsb) (blockDiag Wh Z64 hT64 hc64 hr64) (blockDiag Uh Z3 hT3 hc3 hr3)
    (twiceRow bh hcb hsb)

/-- The packed output, from the arguments. -/
abbrev pOut : S4x131072x6.Idx → EReal :=
  P11 (shapeCast S4x131072x128 h hp64) (shapeCast S4x131072x6 u hp3) (blockDiag Wt Z64 hT64 hc64 hr64)
    (blockDiag Ut Z3 hT3 hc3 hr3) (twiceRow bt hcb hsb) (blockDiag Wh Z64 hT64 hc64 hr64) (blockDiag Uh Z3 hT3 hc3 hr3)
    (twiceRow bh hcb hsb) (blockDiag Wo Zo hTo hco hro) (twiceRow bo hcbo hsbo)

include hZ64 hZ3 in
/-- The packed new state at (a, n / 2, 64 · (n % 2) + j) is the new state of row (a, n) at unit j. -/
theorem state_core (a : Fin 4) (n : Fin 262144) (j : Fin 64) (r : Fin 131072) (l : Fin 128)
    (hr : r.val = n.val / 2) (hl : l.val = 64 * (n.val % 2) + j.val) :
    pState h u Wh Uh bh Wt Ut bt hp64 hp3 Z64 Z3 hT64 hc64 hr64 hT3 hc3 hr3 hcb hsb (ix3 a r l)
      = hnewR h u Wh Uh bh Wt Ut bt a n j := by
  unfold pState P10 hnewR
  rw [cellK_eq]
  refine congr (congr (congrArg cellR ?_) ?_) ?_
  · exact pack64 h hp64 a r l n j (by omega) (by omega)
  · exact score_core h u hp64 hp3 Z64 hZ64 Z3 hZ3 hT64 hc64 hr64 hT3 hc3 hr3 hcb hsb Wt Ut bt a n j r l hr hl
  · exact score_core h u hp64 hp3 Z64 hZ64 Z3 hZ3 hT64 hc64 hr64 hT3 hc3 hr3 hcb hsb Wh Uh bh a n j r l hr hl

include hZ64 hZ3 hZo in
/-- The packed output at (a, n / 2, 3 · (n % 2) + o) is the output of row (a, n) at channel o. -/
theorem out_core (a : Fin 4) (n : Fin 262144) (o : Fin 3) (r : Fin 131072) (q : Fin 6)
    (hr : r.val = n.val / 2) (hq : q.val = 3 * (n.val % 2) + o.val) :
    pOut h u Wh Uh bh Wt Ut bt Wo bo hp64 hp3 Z64 Z3 Zo hT64 hc64 hr64 hT3 hc3 hr3 hTo hco hro hcb hsb hcbo hsbo (ix3 a r q)
      = outR h u Wh Uh bh Wt Ut bt Wo bo a n o := by
  have hn2 : n.val % 2 < 2 := Nat.mod_lt _ (by decide)
  unfold pOut P11 outR
  refine congrArg Ideal.tanh (congrArg₂ (· + ·) ?_ ?_)
  · refine (sum_blockdiag (B := 64)
      (fun k => pState h u Wh Uh bh Wt Ut bt hp64 hp3 Z64 Z3 hT64 hc64 hr64 hT3 hc3 hr3 hcb hsb (ix3 a r k))
      (fun k => blockDiag Wo Zo hTo hco hro (ix2 k q)) (fun k => Wo (ix2 o k)) ⟨n.val % 2, hn2⟩ (fun k => ?_) (fun k => ?_)).trans ?_
    · by_cases hs : n.val % 2 = 0
      · rw [if_pos hs]
        exact blockDiag_tl Wo Zo hTo hco hro _ q k o rfl (by omega)
      · rw [if_neg hs]
        exact (blockDiag_tr Wo Zo hTo hco hro _ q k o rfl (by omega)).trans (hZo _)
    · by_cases hs : n.val % 2 = 1
      · rw [if_pos hs]
        exact blockDiag_br Wo Zo hTo hco hro _ q k o (by show k.val + 64 = 64 + k.val; omega) (by omega)
      · rw [if_neg hs]
        exact (blockDiag_bl Wo Zo hTo hco hro _ q k o (by show k.val + 64 = 64 + k.val; omega) (by omega)).trans (hZo _)
    · refine Finset.sum_congr rfl fun k _ => congrArg (· * Wo (ix2 o k)) ?_
      exact state_core h u Wh Uh bh Wt Ut bt hp64 hp3 Z64 hZ64 Z3 hZ3 hT64 hc64 hr64 hT3 hc3 hr3 hcb hsb a n k r _ hr
        (by show n.val % 2 * 64 + k.val = 64 * (n.val % 2) + k.val; omega)
  · by_cases hs : n.val % 2 = 0
    · exact twiceRow_left bo hcbo hsbo 0 q o (by omega)
    · exact twiceRow_right bo hcbo hsbo 0 q o (by omega)

include hZ64 hZ3 in
/-- The packed new state with each packed row taken apart is the reference's first result. -/
theorem state_fun :
    shapeCast S4x262144x64 (pState h u Wh Uh bh Wt Ut bt hp64 hp3 Z64 Z3 hT64 hc64 hr64 hT3 hc3 hr3 hcb hsb) hu64
      = Cert.ReferenceIdeal.Read.val_main_v28 (F := Ideal) h u Wh Uh bh Wt Ut bt := by
  funext i
  obtain ⟨a, n, j, rfl⟩ : ∃ (a : Fin 4) (n : Fin 262144) (j : Fin 64), i = ix3 a n j := ⟨i 0, i 1, i 2, eq_ix3 i⟩
  rw [v28_apply, unpack64 _ hu64 a n j ⟨n.val / 2, by have := n.isLt; omega⟩ ⟨64 * (n.val % 2) + j.val, by have := j.isLt; omega⟩ rfl rfl]
  exact state_core h u Wh Uh bh Wt Ut bt hp64 hp3 Z64 hZ64 Z3 hZ3 hT64 hc64 hr64 hT3 hc3 hr3 hcb hsb a n j _ _ rfl rfl

include hZ64 hZ3 hZo in
/-- The packed output with each packed row taken apart is the reference's second result. -/
theorem out_fun :
    shapeCast S4x262144x3 (pOut h u Wh Uh bh Wt Ut bt Wo bo hp64 hp3 Z64 Z3 Zo hT64 hc64 hr64 hT3 hc3 hr3 hTo hco hro hcb hsb hcbo hsbo) hu3
      = Cert.ReferenceIdeal.Read.val_main_v33 (F := Ideal) h u Wh Uh bh Wt Ut bt Wo bo := by
  funext i
  obtain ⟨a, n, o, rfl⟩ : ∃ (a : Fin 4) (n : Fin 262144) (o : Fin 3), i = ix3 a n o := ⟨i 0, i 1, i 2, eq_ix3 i⟩
  rw [v33_apply, unpack3 _ hu3 a n o ⟨n.val / 2, by have := n.isLt; omega⟩ ⟨3 * (n.val % 2) + o.val, by have := o.isLt; omega⟩ rfl rfl]
  exact out_core h u Wh Uh bh Wt Ut bt Wo bo hp64 hp3 Z64 hZ64 Z3 hZ3 Zo hZo hT64 hc64 hr64 hT3 hc3 hr3 hTo hco hro hcb hsb hcbo hsbo a n o _ _ rfl rfl

end Cert.Bridge

end
-- ==== Proof.Results.lean ====
/-
  The kernel's two results are the reference's two results of the same arguments.

  The region finds, in the arrays it stages, the host's packing of the arguments: two consecutive rows as one, each
  weight as the block-diagonal matrix of its transpose, each bias twice.  The zero filler of those matrices is the
  number 0.  So the packed new state and packed output the kernel leaves, each packed row taken apart, are the
  reference's new state and output.
-/
import proofs.«124539_j34935263985783_2_alg».proof.Proof.KernelRun
import proofs.«124539_j34935263985783_2_alg».proof.Proof.KernelEntry
import proofs.«124539_j34935263985783_2_alg».proof.Proof.Bridge

set_option maxRecDepth 16384

noncomputable section

namespace Cert.KernelIdeal.Results

open Cert.KernelIdeal Cert.KernelIdeal.Gen Idealize.ShloMosaic Idealize.ShloMosaic.TcCoe Idealize.SL.Sem
open Cert.KernelIdeal.KVal Cert.KernelIdeal.KRun Cert.KernelIdeal.Entry

variable (m : (ℓ : Loc nD τ sig) → Buf (Elt Ideal) ℓ) (c : Dev nD)

theorem filler_zero (S : Shape) (h : S_.BroadcastsInDim S (![] : Fin 0 → Fin S.rank)) (i : S.Idx) : filler S h i = 0 :=
  (filler_apply S h i).trans Ideal.ofBits_zero_f32

/-- The first result is the reference's new state of the arguments. -/
theorem result0 :
    shapeCast S4x262144x64 (S10 m c) shapeCasts_S4x131072x128_S4x262144x64
      = Cert.ReferenceIdeal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold S10
  rw [V_v0, V_v1, V_v7, V_v13, V_v33, V_v19, V_v25, V_v35]
  exact Cert.Bridge.state_fun (hZ64 := filler_zero S64x64 bcast_S_S64x64) (hZ3 := filler_zero S3x64 bcast_S_S3x64) ..

/-- The second result is the reference's output of the arguments. -/
theorem result1 :
    shapeCast S4x262144x3 (S11 m c) shapeCasts_S4x131072x6_S4x262144x3
      = Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold S11
  rw [V_v0, V_v1, V_v7, V_v13, V_v33, V_v19, V_v25, V_v35, V_v31, V_v37]
  exact Cert.Bridge.out_fun (hZ64 := filler_zero S64x64 bcast_S_S64x64) (hZ3 := filler_zero S3x64 bcast_S_S3x64)
    (hZo := filler_zero S64x3 bcast_S_S64x3) ..

end Cert.KernelIdeal.Results

end
-- ==== Proof.lean ====
/-
  The certificate: the kernel and its reference compute the same new state and the same output at the ideal values.

  The kernel reads two consecutive rows of the state and of the input as one packed row and multiplies by
  block-diagonal weights, so that the two rows never mix; the reference multiplies each row by the plain weights.
  A packed sum against a block-diagonal column is the sum over the live half (the other half is multiplied by
  zero, which is zero for every extended real), the softplus, logistic and tanh spellings of the two programs are one
  function each, and a change of float format is the identity: the two new states agree entry by entry, hence so do the
  two outputs, which are tanh of the new state against the output weights.  No finiteness of the inputs is used.

  The three frames are the generated ones (the reference's is its generated run with the results dropped); the
  idealization rewrote nothing, so it preserves the kernel trivially.
-/
import proofs.«124539_j34935263985783_2_alg».proof.Defs
import proofs.«124539_j34935263985783_2_alg».proof.Proof.Gen.Kernel
import proofs.«124539_j34935263985783_2_alg».proof.Proof.Gen.Kernel.Skeleton
import proofs.«124539_j34935263985783_2_alg».proof.Proof.Gen.Kernel.Launch
import proofs.«124539_j34935263985783_2_alg».proof.Proof.Gen.Kernel.Points
import proofs.«124539_j34935263985783_2_alg».proof.Proof.Gen.Kernel.Frame
import proofs.«124539_j34935263985783_2_alg».proof.Proof.Gen.KernelIdeal
import proofs.«124539_j34935263985783_2_alg».proof.Proof.Gen.KernelIdeal.Skeleton
import proofs.«124539_j34935263985783_2_alg».proof.Proof.Gen.KernelIdeal.Launch
import proofs.«124539_j34935263985783_2_alg».proof.Proof.Gen.KernelIdeal.Points
import proofs.«124539_j34935263985783_2_alg».proof.Proof.Gen.KernelIdeal.Frame
import proofs.«124539_j34935263985783_2_alg».proof.Proof.Gen.ReferenceIdeal
import proofs.«124539_j34935263985783_2_alg».proof.Proof.Gen.Pre_finite_inputs
import proofs.«124539_j34935263985783_2_alg».proof.Proof.Gen.ReferenceIdeal.Run
import proofs.«124539_j34935263985783_2_alg».proof.Proof.Gen.ReferenceIdeal.Read
import proofs.«124539_j34935263985783_2_alg».proof.Proof.KernelRun
import proofs.«124539_j34935263985783_2_alg».proof.Proof.Results
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the same two results. -/
theorem algebraic : Cert.algebraic_KernelIdeal_ReferenceIdeal := by
  intro m ρ m' ρ' _ hagree
  refine ⟨_, _, Cert.KernelIdeal.KRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v28_eq, (hagree c).1, (hagree c).2.1, (hagree c).2.2.1, (hagree c).2.2.2.1, (hagree c).2.2.2.2.1, (hagree c).2.2.2.2.2.1, (hagree c).2.2.2.2.2.2.1, (hagree c).2.2.2.2.2.2.2.1]
    exact (Cert.KernelIdeal.Results.result0 m c).symm
  · rw [Cert.ReferenceIdeal.Read.val_main_v33_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact (Cert.KernelIdeal.Results.result1 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
